-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S8192x8192 : Shape := ⟨2, ![8192, 8192]⟩
abbrev S2x64 : Shape := ⟨2, ![2, 64]⟩
abbrev S64 : Shape := ⟨1, ![64]⟩
abbrev S3x64x64 : Shape := ⟨3, ![3, 64, 64]⟩
abbrev S3x64 : Shape := ⟨2, ![3, 64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg18 : FVec F S64 .f32) (main_arg19 : FVec F S64x1 .f32) (main_arg20 : FVec F S1 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x1 .f32 := Host.absf main_arg19
  let main_cst_36 : FVec F S_ .f32 := constant S_ .f32 0x7F800000#32
  let main_v95 : FVec F S64x1 .f32 := broadcastInDim S64x1 ![] bcast_S_S64x1 main_cst_36
  let main_v96 : IVec S64x1 1 := cmpf .olt main_v94 main_v95
  let main_c_37 : IVec S_ 1 := constantI S_ 1 1#1
  let main_v97 : IVec S_ 1 := (fun x v => Host.reduce IntOp.andi x v reducesTo_S64x1_S_d0_1 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg14 : FVec F S64 .f32) (main_arg15 : FVec F S3x64x64 .f32) (main_arg16 : FVec F S3x64 .f32) (main_arg17 : FVec F S64x64 .f32) (main_arg18 : FVec F S64 .f32) (main_arg19 : FVec F S64x1 .f32) (main_arg20 : FVec F S1 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S3x64x64 .f32 := Host.absf main_arg15
  let main_cst_28 : FVec F S_ .f32 := constant S_ .f32 0x7F800000#32
  let main_v75 : FVec F S3x64x64 .f32 := broadcastInDim S3x64x64 ![] bcast_S_S3x64x64 main_cst_28
  let main_v76 : IVec S3x64x64 1 := cmpf .olt main_v74 main_v75
  let main_c_29 : IVec S_ 1 := constantI S_ 1 1#1
  let main_v77 : IVec S_ 1 := (fun x v => Host.reduce IntOp.andi x v reducesTo_S3x64x64_S_d0_1_2 h_S_) main_v76 main_c_29
  let main_v78 : IVec S_ 1 := andi main_v73 main_v77
  let main_v79 : FVec F S3x64 .f32 := Host.absf main_arg16
  let main_cst_30 : FVec F S_ .f32 := constant S_ .f32 0x7F800000#32
  let main_v80 : FVec F S3x64 .f32 := broadcastInDim S3x64 ![] bcast_S_S3x64 main_cst_30
  let main_v81 : IVec S3x64 1 := cmpf .olt main_v79 main_v80
  let main_c_31 : IVec S_ 1 := constantI S_ 1 1#1
  let main_v82 : IVec S_ 1 := (fun x v => Host.reduce IntOp.andi x v reducesTo_S3x64_S_d0_1 h_S_) main_v81 main_c_31
  let main_v83 : IVec S_ 1 := andi main_v78 main_v82
  let main_v84 : FVec F S64x64 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S3x64x64 .f32) (main_arg12 : FVec F S3x64 .f32) (main_arg13 : FVec F S2x64 .f32) (main_arg14 : FVec F S64 .f32) (main_arg15 : FVec F S3x64x64 .f32) (main_arg16 : FVec F S3x64 .f32) (main_arg17 : FVec F S64x64 .f32) (main_arg18 : FVec F S64 .f32) (main_arg19 : FVec F S64x1 .f32) (main_arg20 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S3x64x64 .f32 := Host.absf main_arg11
  let main_cst_20 : FVec F S_ .f32 := constant S_ .f32 0x7F800000#32
  let main_v55 : FVec F S3x64x64 .f32 := broadcastInDim S3x64x64 ![] bcast_S_S3x64x64 main_cst_20
  let main_v56 : IVec S3x64x64 1 := cmpf .olt main_v54 main_v55
  let main_c_21 : IVec S_ 1 := constantI S_ 1 1#1
  let main_v57 : IVec S_ 1 := (fun x v => Host.reduce IntOp.andi x v reducesTo_S3x64x64_S_d0_1_2 h_S_) main_v56 main_c_21
  let main_v58 : IVec S_ 1 := andi main_v53 main_v57
  let main_v59 : FVec F S3x64 .f32 := Host.absf main_arg12
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  let main_v64 : FVec F S2x64 .f32 := Host.absf main_arg13
  let main_cst_24 : FVec F S_ .f32 := constant S_ .f32 0x7F800000#32
  let main_v65 : FVec F S2x64 .f32 := broadcastInDim S2x64 ![] bcast_S_S2x64 main_cst_24
  let main_v66 : IVec S2x64 1 := cmpf .olt main_v64 main_v65
  let main_c_25 : IVec S_ 1 := constantI S_ 1 1#1
  let main_v67 : IVec S_ 1 := (fun x v => Host.reduce IntOp.andi x v reducesTo_S2x64_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S3x64x64 .f32) (main_arg8 : FVec F S3x64 .f32) (main_arg9 : FVec F S2x64 .f32) (main_arg10 : FVec F S64 .f32) (main_arg11 : FVec F S3x64x64 .f32) (main_arg12 : FVec F S3x64 .f32) (main_arg13 : FVec F S2x64 .f32) (main_arg14 : FVec F S64 .f32) (main_arg15 : FVec F S3x64x64 .f32) (main_arg16 : FVec F S3x64 .f32) (main_arg17 : FVec F S64x64 .f32) (main_arg18 : FVec F S64 .f32) (main_arg19 : FVec F S64x1 .f32) (main_arg20 : FVec F S1 .f32) (main_v33 : IVec S_ 1) : IVec S_ 1 :=
  let main_v34 : FVec F S3x64x64 .f32 := Host.absf main_arg7
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg8
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S2x64 .f32 := Host.absf main_arg9
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S8192x8192 .f32) (main_arg5 : FVec F S2x64 .f32) (main_arg6 : FVec F S64 .f32) (main_arg7 : FVec F S3x64x64 .f32) (main_arg8 : FVec F S3x64 .f32) (main_arg9 : FVec F S2x64 .f32) (main_arg10 : FVec F S64 .f32) (main_arg11 : FVec F S3x64x64 .f32) (main_arg12 : FVec F S3x64 .f32) (main_arg13 : FVec F S2x64 .f32) (main_arg14 : FVec F S64 .f32) (main_arg15 : FVec F S3x64x64 .f32) (main_arg16 : FVec F S3x64 .f32) (main_arg17 : FVec F S64x64 .f32) (main_arg18 : FVec F S64 .f32) (main_arg19 : FVec F S64x1 .f32) (main_arg20 : FVec F S1 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S8192x2 .f32) (main_arg1 : FVec F S8192x2 .f32) (main_arg2 : FVec F S8192x2 .f32) (main_arg3 : FVec F S8192x8192 .f32) (main_arg4 : FVec F S8192x8192 .f32) (main_arg5 : FVec F S2x64 .f32) (main_arg6 : FVec F S64 .f32) (main_arg7 : FVec F S3x64x64 .f32) (main_arg8 : FVec F S3x64 .f32) (main_arg9 : FVec F S2x64 .f32) (main_arg10 : FVec F S64 .f32) (main_arg11 : FVec F S3x64x64 .f32) (main_arg12 : FVec F S3x64 .f32) (main_arg13 : FVec F S2x64 .f32) (main_arg14 : FVec F S64 .f32) (main_arg15 : FVec F S3x64x64 .f32) (main_arg16 : FVec F S3x64 .f32) (main_arg17 : FVec F S64x64 .f32) (main_arg18 : FVec F S64 .f32) (main_arg19 : FVec F S64x1 .f32) (main_arg20 : FVec F S1 .f32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8192x2 .f32 := Host.absf main_arg2
  let main_cst_2 : FVec F S_ .f32 := constant S_ .f32 0x7F800000#32
  let main_v10 : FVec F S8192x2 .f32 := broadcastInDim S8192x2 ![] bcast_S_S8192x2 main_cst_2
  let main_v11 : IVec S8192x2 1 := cmpf .olt main_v9 main_v10
  let main_c_3 : IVec S_ 1 := constantI S_ 1 1#1
  let main_v12 : IVec S_ 1 := (fun x v => Host.reduce IntOp.andi x v reducesTo_S8192x2_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S8192x2 : Shape := ⟨2, ![8192, 2]⟩
abbrev S8192x8192 : Shape := ⟨2, ![8192, 8192]⟩
abbrev S2x64 : Shape := ⟨2, ![2, 64]⟩
abbrev S64 : Shape := ⟨1, ![64]⟩
abbrev S3x64x64 : Shape := ⟨3, ![3, 64, 64]⟩
abbrev S3x64 : Shape := ⟨2, ![3, 64]⟩
abbrev S64x64 : Shape := ⟨2, ![64, 64]⟩
abbrev S64x1 : Shape := ⟨2, ![64, 1]⟩
abbrev S1 : Shape := ⟨1, ![1]⟩
abbrev S8192x64 : Shape := ⟨2, ![8192, 64]⟩
abbrev S1x64 : Shape := ⟨2, ![1, 64]⟩
abbrev S_ : Shape := ⟨0, ![]⟩
abbrev S8192x128 : Shape := ⟨2, ![8192, 128]⟩
abbrev S128x8192 : Shape := ⟨2, ![128, 8192]⟩
abbrev S128x64 : Shape := ⟨2, ![128, 64]⟩
abbrev S128x128 : Shape := ⟨2, ![128, 128]⟩
abbrev S1x64x64 : Shape := ⟨3, ![1, 64, 64]⟩
abbrev S256x8192 : Shape := ⟨2, ![256, 8192]⟩
abbrev S256x64 : Shape := ⟨2, ![256, 64]⟩
abbrev S256x128 : Shape := ⟨2, ![256, 128]⟩
abbrev S1x1 : Shape := ⟨2, ![1, 1]⟩

abbrev nBuf : Space → Nat
  | .hbm => 173
  | .vmem => 34
  | .smem => 0
  | _ => 0

abbrev hbmTy0_0 (i : Nat) : BufTy := match i % 128 with
  | 0 => ⟨S8192x2, .f32⟩
  | 1 => ⟨S8192x2, .f32⟩
  | 2 => ⟨S8192x2, .f32⟩
  | 3 => ⟨S8192x8192, .f32⟩
  | 4 => ⟨S8192x8192, .f32⟩
  | 5 => ⟨S2x64, .f32⟩
  | 6 => ⟨S64, .f32⟩
  | 7 => ⟨S3x64x64, .f32⟩
  | 8 => ⟨S3x64, .f32⟩
  | 9 => ⟨S2x64, .f32⟩
  | 10 => ⟨S64, .f32⟩
  | 11 => ⟨S3x64x64, .f32⟩
  | 12 => ⟨S3x64, .f32⟩
  | 13 => ⟨S2x64, .f32⟩
  | 14 => ⟨S64, .f32⟩
  | 15 => ⟨S3x64x64, .f32⟩
  | 16 => ⟨S3x64, .f32⟩
  | 17 => ⟨S64x64, .f32⟩
  | 18 => ⟨S64, .f32⟩
  | 19 => ⟨S64x1, .f32⟩
  | 20 => ⟨S1, .f32⟩
  | 21 => ⟨S8192x64, .f32⟩
  | 22 => ⟨S1x64, .f32⟩
  | 23 => ⟨S8192x64, .f32⟩
  | 24 => ⟨S8192x64, .f32⟩
  | 25 => ⟨S_, .f32⟩
  | 26 => ⟨S8192x64, .f32⟩
  | 27 => ⟨S8192x64, .f32⟩
  | 28 => ⟨S8192x64, .f32⟩
  | 29 => ⟨S1x64, .f32⟩
  | 30 => ⟨S8192x64, .f32⟩
  | 31 => ⟨S8192x64, .f32⟩
  | 32 => ⟨S_, .f32⟩
  | 33 => ⟨S8192x64, .f32⟩
  | 34 => ⟨S8192x64, .f32⟩
  | 35 => ⟨S8192x64, .f32⟩
  | 36 => ⟨S8192x64, .f32⟩
  | 37 => ⟨S1x64, .f32⟩
  | 38 => ⟨S8192x64, .f32⟩
  | 39 => ⟨S8192x64, .f32⟩
  | 40 => ⟨S_, .f32⟩
  | 41 => ⟨S8192x64, .f32⟩
  | 42 => ⟨S8192x64, .f32⟩
  | 43 => ⟨S8192x64, .bf16⟩
  | 44 => ⟨S8192x64, .bf16⟩
  | 45 => ⟨S8192x128, .bf16⟩
  | 46 => ⟨S8192x64, .f32⟩
  | 47 => ⟨S8192x128, .f32⟩
  | 48 => ⟨S8192x8192, .bf16⟩
  | 49 => ⟨S8192x8192, .bf16⟩
  | 50 => ⟨S8192x64, .f32⟩
  | 51 => ⟨S8192x64, .f32⟩
  | 52 => ⟨S1x64x64, .f32⟩
  | 53 => ⟨S64x64, .f32⟩
  | 54 => ⟨S1x64, .f32⟩
  | 55 => ⟨S64, .f32⟩
  | 56 => ⟨S1x64x64, .f32⟩
  | 57 => ⟨S64x64, .f32⟩
  | 58 => ⟨S1x64, .f32⟩
  | 59 => ⟨S64, .f32⟩
  | 60 => ⟨S1x64x64, .f32⟩
  | 61 => ⟨S64x64, .f32⟩
  | 62 => ⟨S1x64, .f32⟩
  | 63 => ⟨S64, .f32⟩
  | 64 => ⟨S8192x64, .f32⟩
  | 65 => ⟨S1x64, .f32⟩
  | 66 => ⟨S8192x64, .f32⟩
  | 67 => ⟨S8192x64, .f32⟩
  | 68 => ⟨S_, .f32⟩
  | 69 => ⟨S8192x64, .f32⟩
  | 70 => ⟨S8192x64, .f32⟩
  | 71 => ⟨S8192x64, .f32⟩
  | 72 => ⟨S1x64, .f32⟩
  | 73 => ⟨S8192x64, .f32⟩
  | 74 => ⟨S8192x64, .f32⟩
  | 75 => ⟨S_, .f32⟩
  | 76 => ⟨S8192x64, .f32⟩
  | 77 => ⟨S8192x64, .f32⟩
  | 78 => ⟨S8192x64, .f32⟩
  | 79 => ⟨S8192x64, .f32⟩
  | 80 => ⟨S1x64, .f32⟩
  | 81 => ⟨S8192x64, .f32⟩
  | 82 => ⟨S8192x64, .f32⟩
  | 83 => ⟨S_, .f32⟩
  | 84 => ⟨S8192x64, .f32⟩
  | 85 => ⟨S8192x64, .f32⟩
  | 86 => ⟨S8192x64, .bf16⟩
  | 87 => ⟨S8192x64, .bf16⟩
  | 88 => ⟨S8192x128, .bf16⟩
  | 89 => ⟨S8192x64, .f32⟩
  | 90 => ⟨S8192x128, .f32⟩
  | 91 => ⟨S8192x64, .f32⟩
  | 92 => ⟨S8192x64, .f32⟩
  | 93 => ⟨S1x64x64, .f32⟩
  | 94 => ⟨S64x64, .f32⟩
  | 95 => ⟨S1x64, .f32⟩
  | 96 => ⟨S64, .f32⟩
  | 97 => ⟨S1x64x64, .f32⟩
  | 98 => ⟨S64x64, .f32⟩
  | 99 => ⟨S1x64, .f32⟩
  | 100 => ⟨S64, .f32⟩
  | 101 => ⟨S1x64x64, .f32⟩
  | 102 => ⟨S64x64, .f32⟩
  | 103 => ⟨S1x64, .f32⟩
  | 104 => ⟨S64, .f32⟩
  | 105 => ⟨S8192x64, .f32⟩
  | 106 => ⟨S1x64, .f32⟩
  | 107 => ⟨S8192x64, .f32⟩
  | 108 => ⟨S8192x64, .f32⟩
  | 109 => ⟨S_, .f32⟩
  | 110 => ⟨S8192x64, .f32⟩
  | 111 => ⟨S8192x64, .f32⟩
  | 112 => ⟨S8192x64, .f32⟩
  | 113 => ⟨S1x64, .f32⟩
  | 114 => ⟨S8192x64, .f32⟩
  | 115 => ⟨S8192x64, .f32⟩
  | 116 => ⟨S_, .f32⟩
  | 117 => ⟨S8192x64, .f32⟩
  | 118 => ⟨S8192x64, .f32⟩
  | 119 => ⟨S8192x64, .f32⟩
  | 120 => ⟨S8192x64, .f32⟩
  | 121 => ⟨S1x64, .f32⟩
  | 122 => ⟨S8192x64, .f32⟩
  | 123 => ⟨S8192x64, .f32⟩
  | 124 => ⟨S_, .f32⟩
  | 125 => ⟨S8192x64, .f32⟩
  | 126 => ⟨S8192x64, .f32⟩
  | 127 => ⟨S8192x64, .bf16⟩
  | _ => ⟨S8192x2, .f32⟩

abbrev hbmTy0_1 (i : Nat) : BufTy := match i % 128 with
  | 0 => ⟨S8192x64, .bf16⟩
  | 1 => ⟨S8192x128, .bf16⟩
  | 2 => ⟨S8192x64, .f32⟩
  | 3 => ⟨S8192x128, .f32⟩
  | 4 => ⟨S8192x64, .f32⟩
  | 5 => ⟨S8192x64, .f32⟩
  | 6 => ⟨S1x64x64, .f32⟩
  | 7 => ⟨S64x64, .f32⟩
  | 8 => ⟨S1x64, .f32⟩
  | 9 => ⟨S64, .f32⟩
  | 10 => ⟨S1x64x64, .f32⟩
  | 11 => ⟨S64x64, .f32⟩
  | 12 => ⟨S1x64, .f32⟩
  | 13 => ⟨S64, .f32⟩
  | 14 => ⟨S1x64x64, .f32⟩
  | 15 => ⟨S64x64, .f32⟩
  | 16 => ⟨S1x64, .f32⟩
  | 17 => ⟨S64, .f32⟩
  | 18 => ⟨S8192x64, .f32⟩
  | 19 => ⟨S1x64, .f32⟩
  | 20 => ⟨S8192x64, .f32⟩
  | 21 => ⟨S8192x64, .f32⟩
  | 22 => ⟨S_, .f32⟩
  | 23 => ⟨S8192x64, .f32⟩
  | 24 => ⟨S8192x64, .f32⟩
  | 25 => ⟨S8192x64, .f32⟩
  | 26 => ⟨S1x64, .f32⟩
  | 27 => ⟨S8192x64, .f32⟩
  | 28 => ⟨S8192x64, .f32⟩
  | 29 => ⟨S_, .f32⟩
  | 30 => ⟨S8192x64, .f32⟩
  | 31 => ⟨S8192x64, .f32⟩
  | 32 => ⟨S8192x64, .f32⟩
  | 33 => ⟨S_, .f32⟩
  | 34 => ⟨S64, .f32⟩
  | 35 => ⟨S1x64, .f32⟩
  | 36 => ⟨S1x64, .f32⟩
  | 37 => ⟨S1x64, .f32⟩
  | 38 => ⟨S1x64, .f32⟩
  | 39 => ⟨S_, .f32⟩
  | 40 => ⟨S1x64, .f32⟩
  | 41 => ⟨S1x64, .f32⟩
  | 42 => ⟨S1x1, .f32⟩
  | 43 => ⟨S1x1, .f32⟩
  | 44 => ⟨S1x1, .f32⟩
  | _ => ⟨S8192x2, .f32⟩

abbrev hbmTy (i : Nat) : BufTy := match i / 128 with
  | 0 => hbmTy0_0 i
  | 1 => hbmTy0_1 i
  | _ => ⟨S8192x2, .f32⟩

abbrev bufTy : (tb : Table) → Fin (tcTables nBuf tb) → BufTy
  | .hbm, ⟨i, _⟩ => hbmTy i
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S8192x64, .bf16⟩
  | .local _ .vmem, ⟨5, _⟩ => ⟨S8192x128, .bf16⟩
  | .local _ .vmem, ⟨6, _⟩ => ⟨S128x64, .f32⟩
  | .local _ .vmem, ⟨7, _⟩ => ⟨S128x64, .f32⟩
  | .local _ .vmem, ⟨8, _⟩ => ⟨S128x128, .f32⟩
  | .local _ .vmem, ⟨9, _⟩ => ⟨S128x128, .f32⟩
  | .local _ .vmem, ⟨10, _⟩ => ⟨S128x8192, .bf16⟩
  | .local _ .vmem, ⟨11, _⟩ => ⟨S128x8192, .bf16⟩
  | .local _ .vmem, ⟨12, _⟩ => ⟨S128x8192, .bf16⟩
  | .local _ .vmem, ⟨13, _⟩ => ⟨S128x8192, .bf16⟩
  | .local _ .vmem, ⟨14, _⟩ => ⟨S256x8192, .bf16⟩
  | .local _ .vmem, ⟨15, _⟩ => ⟨S256x8192, .bf16⟩
  | .local _ .vmem, ⟨16, _⟩ => ⟨S256x8192, .bf16⟩
  | .local _ .vmem, ⟨17, _⟩ => ⟨S256x8192, .bf16⟩
  | .local _ .vmem, ⟨18, _⟩ => ⟨S8192x64, .bf16⟩
  | .local _ .vmem, ⟨19, _⟩ => ⟨S8192x128, .bf16⟩
  | .local _ .vmem, ⟨20, _⟩ => ⟨S256x64, .f32⟩
  | .local _ .vmem, ⟨21, _⟩ => ⟨S256x64, .f32⟩
  | .local _ .vmem, ⟨22, _⟩ => ⟨S256x128, .f32⟩
  | .local _ .vmem, ⟨23, _⟩ => ⟨S256x128, .f32⟩
  | .local _ .vmem, ⟨24, _⟩ => ⟨S256x8192, .bf16⟩
  | .local _ .vmem, ⟨25, _⟩ => ⟨S256x8192, .bf16⟩
  | .local _ .vmem, ⟨26, _⟩ => ⟨S256x8192, .bf16⟩
  | .local _ .vmem, ⟨27, _⟩ => ⟨S256x8192, .bf16⟩
  | .local _ .vmem, ⟨28, _⟩ => ⟨S8192x64, .bf16⟩
  | .local _ .vmem, ⟨29, _⟩ => ⟨S8192x128, .bf16⟩
  | .local _ .vmem, ⟨30, _⟩ => ⟨S256x64, .f32⟩
  | .local _ .vmem, ⟨31, _⟩ => ⟨S256x64, .f32⟩
  | .local _ .vmem, ⟨32, _⟩ => ⟨S256x128, .f32⟩
  | .local _ .vmem, ⟨33, _⟩ => ⟨S256x128, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_cst : Ref sig .tc := ⟨.hbm, 25, rfl⟩
abbrev main_call0_v0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_call1_cst : Ref sig .tc := ⟨.hbm, 32, rfl⟩
abbrev main_call1_v0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_call2_cst : Ref sig .tc := ⟨.hbm, 40, rfl⟩
abbrev main_call2_v0 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19_0 : Ref sig .tc := ⟨.hbm, 46, rfl⟩
abbrev main_v19_1 : Ref sig .tc := ⟨.hbm, 47, rfl⟩
abbrev main_v19_2 : Ref sig .tc := ⟨.hbm, 48, rfl⟩
abbrev main_v19_3 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_call3_cst : Ref sig .tc := ⟨.hbm, 68, rfl⟩
abbrev main_call3_v0 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_call4_cst : Ref sig .tc := ⟨.hbm, 75, rfl⟩
abbrev main_call4_v0 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_call5_cst : Ref sig .tc := ⟨.hbm, 83, rfl⟩
abbrev main_call5_v0 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53_0 : Ref sig .tc := ⟨.hbm, 89, rfl⟩
abbrev main_v53_1 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_call6_cst : Ref sig .tc := ⟨.hbm, 109, rfl⟩
abbrev main_call6_v0 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_call7_cst : Ref sig .tc := ⟨.hbm, 116, rfl⟩
abbrev main_call7_v0 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_call8_cst : Ref sig .tc := ⟨.hbm, 124, rfl⟩
abbrev main_call8_v0 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87_0 : Ref sig .tc := ⟨.hbm, 130, rfl⟩
abbrev main_v87_1 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_call9_cst : Ref sig .tc := ⟨.hbm, 150, rfl⟩
abbrev main_call9_v0 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_call10_cst : Ref sig .tc := ⟨.hbm, 157, rfl⟩
abbrev main_call10_v0 : Ref sig .tc := ⟨.hbm, 158, rfl⟩
abbrev main_v111 : Ref sig .tc := ⟨.hbm, 159, rfl⟩
abbrev main_v112 : Ref sig .tc := ⟨.hbm, 160, rfl⟩
abbrev main_cst : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_call11_cst : Ref sig .tc := ⟨.hbm, 167, rfl⟩
abbrev main_call11_v0 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31
abbrev cc2_sem5_0 : DmaSem sig := 32
abbrev cc2_sem5_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x8192 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8192x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8192x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bitsLt_bf16_f32 : FTy.bits .bf16 < FTy.bits .f32
  concatenates_S8192x64_S8192x64_S8192x128_d1 : Shape.Concatenates [S8192x64, S8192x64] S8192x128 1
  inb_S128x8192_S128x8192_0_0 : ∀ a, (![0, 0] : Fin 2 → Nat) a + S128x8192.size a ≤ S128x8192.size a
  h_S128x8192 : 0 < S128x8192.numel
  packedbf16_S128x8192_S128x8192_0_0 : (Rect.unit (s := S128x8192) ![0, 0] S128x8192.size inb_S128x8192_S128x8192_0_0).PackedRows (EltTy.packing .bf16)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x64_S128x64_0_0 : ∀ a, (![0, 0] : Fin 2 → Nat) a + S128x64.size a ≤ S128x64.size a
  h_S128x64 : 0 < S128x64.numel
  inb_S128x128_S128x128_0_0 : ∀ a, (![0, 0] : Fin 2 → Nat) a + S128x128.size a ≤ S128x128.size a
  h_S128x128 : 0 < S128x128.numel
  slices_S8192x128_S8192x64_0_0 : S8192x128.Slices ![0, 0] S8192x64
  slices_S8192x128_S8192x64_0_64 : S8192x128.Slices ![0, 64] S8192x64
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S256x64_S256x64_0_0 : ∀ a, (![0, 0] : Fin 2 → Nat) a + S256x64.size a ≤ S256x64.size a
  h_S256x64 : 0 < S256x64.numel
  inb_S256x128_S256x128_0_0 : ∀ a, (![0, 0] : Fin 2 → Nat) a + S256x128.size a ≤ S256x128.size a
  h_S256x128 : 0 < S256x128.numel
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  reducesTo_S8192x64_S64_d0 : S8192x64.ReducesTo [0] S64
  h_S_ : 0 < S_.numel
  bcast_S_S1x64 : S_.BroadcastsInDim S1x64 (![] : Fin 0 → Fin S1x64.rank)
  bcast_S1_S1x1_1 : S1.BroadcastsInDim S1x1 (![1] : Fin 1 → Fin S1x1.rank)
  dot_S8192x2_S2x64_S8192x64_1_0_0_1_n_n_wf : DotDims.WF S8192x2 S2x64 S8192x64 [1] [0] [0] [1] [] []
  dot_S128x8192_S8192x64_S128x64_1_0_0_1_n_n_wf : DotDims.WF S128x8192 S8192x64 S128x64 [1] [0] [0] [1] [] []
  dot_S128x8192_S8192x128_S128x128_1_0_0_1_n_n_wf : DotDims.WF S128x8192 S8192x128 S128x128 [1] [0] [0] [1] [] []
  dot_S8192x64_S64x64_S8192x64_1_0_0_1_n_n_wf : DotDims.WF S8192x64 S64x64 S8192x64 [1] [0] [0] [1] [] []
  dot_S256x8192_S8192x64_S256x64_1_0_0_1_n_n_wf : DotDims.WF S256x8192 S8192x64 S256x64 [1] [0] [0] [1] [] []
  dot_S256x8192_S8192x128_S256x128_1_0_0_1_n_n_wf : DotDims.WF S256x8192 S8192x128 S256x128 [1] [0] [0] [1] [] []
  dot_S1x64_S64x64_S1x64_1_0_0_1_n_n_wf : DotDims.WF S1x64 S64x64 S1x64 [1] [0] [0] [1] [] []
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S8192x64.size a
  hwx0_2 : ∀ i : grid0.Coords, EltTy.bits .bf16 = 32 ∨ (Rect.block (s := S8192x64) S8192x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x128.size a
  hwx0_3 : ∀ i : grid0.Coords, EltTy.bits .bf16 = 32 ∨ (Rect.block (s := S8192x128) S8192x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S8192x64.size a
  hwx0_4 : ∀ i : grid0.Coords, EltTy.bits .f32 = 32 ∨ (Rect.block (s := S8192x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S8192x128.size a
  hwx0_5 : ∀ i : grid0.Coords, EltTy.bits .f32 = 32 ∨ (Rect.block (s := S8192x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x8192.size a ≤ S8192x8192.size a
  hwx0_6 : ∀ i : grid0.Coords, EltTy.bits .bf16 = 32 ∨ (Rect.block (s := S8192x8192) S128x8192.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x8192.size a ≤ S8192x8192.size a
  hwx0_7 : ∀ i : grid0.Coords, EltTy.bits .bf16 = 32 ∨ (Rect.block (s := S8192x8192) S128x8192.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .bf16 = 32 ∨ (Rect.block (s := S8192x8192) S256x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x8192.size a ≤ S8192x8192.size a
  hwx1_1 : ∀ i : grid1.Coords, EltTy.bits .bf16 = 32 ∨ (Rect.block (s := S8192x8192) S256x8192.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S8192x64.size a
  hwx1_2 : ∀ i : grid1.Coords, EltTy.bits .bf16 = 32 ∨ (Rect.block (s := S8192x64) S8192x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S8192x128.size a
  hwx1_3 : ∀ i : grid1.Coords, EltTy.bits .bf16 = 32 ∨ (Rect.block (s := S8192x128) S8192x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x64.size a ≤ S8192x64.size a
  hwx1_4 : ∀ i : grid1.Coords, EltTy.bits .f32 = 32 ∨ (Rect.block (s := S8192x64) S256x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S8192x128.size a
  hwx1_5 : ∀ i : grid1.Coords, EltTy.bits .f32 = 32 ∨ (Rect.block (s := S8192x128) S256x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S8192x8192.size a
  hwx2_0 : ∀ i : grid2.Coords, EltTy.bits .bf16 = 32 ∨ (Rect.block (s := S8192x8192) S256x8192.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x8192.size a ≤ S8192x8192.size a
  hwx2_1 : ∀ i : grid2.Coords, EltTy.bits .bf16 = 32 ∨ (Rect.block (s := S8192x8192) S256x8192.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S8192x64.size a
  hwx2_2 : ∀ i : grid2.Coords, EltTy.bits .bf16 = 32 ∨ (Rect.block (s := S8192x64) S8192x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8192x128.size a ≤ S8192x128.size a
  hwx2_3 : ∀ i : grid2.Coords, EltTy.bits .bf16 = 32 ∨ (Rect.block (s := S8192x128) S8192x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x64.size a ≤ S8192x64.size a
  hwx2_4 : ∀ i : grid2.Coords, EltTy.bits .f32 = 32 ∨ (Rect.block (s := S8192x64) S256x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S8192x128.size a
  hwx2_5 : ∀ i : grid2.Coords, EltTy.bits .f32 = 32 ∨ (Rect.block (s := S8192x128) S256x128.size (cc2_transform_5 i) (hinb2_5 i)).WholeWords (EltTy.packing .f32)

variable [Facts₀]

def dot_S8192x2_S2x64_S8192x64_1_0_0_1_n_n : DotDims S8192x2 S2x64 S8192x64 where
  lhsContracting := [1]
  rhsContracting := [0]
  lhsNonContracting := [0]
  rhsNonContracting := [1]
  lhsBatch := []
  rhsBatch := []
  wf := dot_S8192x2_S2x64_S8192x64_1_0_0_1_n_n_wf
def dot_S128x8192_S8192x64_S128x64_1_0_0_1_n_n : DotDims S128x8192 S8192x64 S128x64 where
  lhsContracting := [1]
  rhsContracting := [0]
  lhsNonContracting := [0]
  rhsNonContracting := [1]
  lhsBatch := []
  rhsBatch := []
  wf := dot_S128x8192_S8192x64_S128x64_1_0_0_1_n_n_wf
def dot_S128x8192_S8192x128_S128x128_1_0_0_1_n_n : DotDims S128x8192 S8192x128 S128x128 where
  lhsContracting := [1]
  rhsContracting := [0]
  lhsNonContracting := [0]
  rhsNonContracting := [1]
  lhsBatch := []
  rhsBatch := []
  wf := dot_S128x8192_S8192x128_S128x128_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_arg3) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S8192x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S8192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S128x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S128x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19_2) S128x8192.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_3) S128x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v19_2) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_3) S256x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S8192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S8192x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53_0) S256x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v53_1) S256x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v19_2) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19_3) S256x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v84) S8192x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v86) S8192x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v87_0) S256x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v87_1) S256x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8192x2 : Shape := ⟨2, ![8192, 2]⟩
abbrev S8192x8192 : Shape := ⟨2, ![8192, 8192]⟩
abbrev S2x64 : Shape := ⟨2, ![2, 64]⟩
abbrev S64 : Shape := ⟨1, ![64]⟩
abbrev S3x64x64 : Shape := ⟨3, ![3, 64, 64]⟩
abbrev S3x64 : Shape := ⟨2, ![3, 64]⟩
abbrev S64x64 : Shape := ⟨2, ![64, 64]⟩
abbrev S64x1 : Shape := ⟨2, ![64, 1]⟩
abbrev S1 : Shape := ⟨1, ![1]⟩
abbrev S8192x64 : Shape := ⟨2, ![8192, 64]⟩
abbrev S1x64 : Shape := ⟨2, ![1, 64]⟩
abbrev S_ : Shape := ⟨0, ![]⟩
abbrev S1x64x64 : Shape := ⟨3, ![1, 64, 64]⟩
abbrev S1x1 : Shape := ⟨2, ![1, 1]⟩

abbrev nBuf : Space → Nat
  | .hbm => 169
  | .vmem => 0
  | .smem => 0
  | _ => 0

abbrev hbmTy0_0 (i : Nat) : BufTy := match i % 128 with
  | 0 => ⟨S8192x2, .f32⟩
  | 1 => ⟨S8192x2, .f32⟩
  | 2 => ⟨S8192x2, .f32⟩
  | 3 => ⟨S8192x8192, .f32⟩
  | 4 => ⟨S8192x8192, .f32⟩
  | 5 => ⟨S2x64, .f32⟩
  | 6 => ⟨S64, .f32⟩
  | 7 => ⟨S3x64x64, .f32⟩
  | 8 => ⟨S3x64, .f32⟩
  | 9 => ⟨S2x64, .f32⟩
  | 10 => ⟨S64, .f32⟩
  | 11 => ⟨S3x64x64, .f32⟩
  | 12 => ⟨S3x64, .f32⟩
  | 13 => ⟨S2x64, .f32⟩
  | 14 => ⟨S64, .f32⟩
  | 15 => ⟨S3x64x64, .f32⟩
  | 16 => ⟨S3x64, .f32⟩
  | 17 => ⟨S64x64, .f32⟩
  | 18 => ⟨S64, .f32⟩
  | 19 => ⟨S64x1, .f32⟩
  | 20 => ⟨S1, .f32⟩
  | 21 => ⟨S8192x64, .f32⟩
  | 22 => ⟨S1x64, .f32⟩
  | 23 => ⟨S8192x64, .f32⟩
  | 24 => ⟨S8192x64, .f32⟩
  | 25 => ⟨S_, .f32⟩
  | 26 => ⟨S8192x64, .f32⟩
  | 27 => ⟨S8192x64, .f32⟩
  | 28 => ⟨S8192x64, .f32⟩
  | 29 => ⟨S1x64, .f32⟩
  | 30 => ⟨S8192x64, .f32⟩
  | 31 => ⟨S8192x64, .f32⟩
  | 32 => ⟨S_, .f32⟩
  | 33 => ⟨S8192x64, .f32⟩
  | 34 => ⟨S8192x64, .f32⟩
  | 35 => ⟨S8192x64, .f32⟩
  | 36 => ⟨S8192x64, .f32⟩
  | 37 => ⟨S1x64, .f32⟩
  | 38 => ⟨S8192x64, .f32⟩
  | 39 => ⟨S8192x64, .f32⟩
  | 40 => ⟨S_, .f32⟩
  | 41 => ⟨S8192x64, .f32⟩
  | 42 => ⟨S8192x64, .f32⟩
  | 43 => ⟨S8192x64, .f32⟩
  | 44 => ⟨S8192x64, .f32⟩
  | 45 => ⟨S8192x64, .f32⟩
  | 46 => ⟨S1x64x64, .f32⟩
  | 47 => ⟨S64x64, .f32⟩
  | 48 => ⟨S1x64, .f32⟩
  | 49 => ⟨S64, .f32⟩
  | 50 => ⟨S1x64x64, .f32⟩
  | 51 => ⟨S64x64, .f32⟩
  | 52 => ⟨S1x64, .f32⟩
  | 53 => ⟨S64, .f32⟩
  | 54 => ⟨S1x64x64, .f32⟩
  | 55 => ⟨S64x64, .f32⟩
  | 56 => ⟨S1x64, .f32⟩
  | 57 => ⟨S64, .f32⟩
  | 58 => ⟨S8192x64, .f32⟩
  | 59 => ⟨S1x64, .f32⟩
  | 60 => ⟨S8192x64, .f32⟩
  | 61 => ⟨S8192x64, .f32⟩
  | 62 => ⟨S_, .f32⟩
  | 63 => ⟨S8192x64, .f32⟩
  | 64 => ⟨S8192x64, .f32⟩
  | 65 => ⟨S8192x64, .f32⟩
  | 66 => ⟨S1x64, .f32⟩
  | 67 => ⟨S8192x64, .f32⟩
  | 68 => ⟨S8192x64, .f32⟩
  | 69 => ⟨S_, .f32⟩
  | 70 => ⟨S8192x64, .f32⟩
  | 71 => ⟨S8192x64, .f32⟩
  | 72 => ⟨S8192x64, .f32⟩
  | 73 => ⟨S8192x64, .f32⟩
  | 74 => ⟨S1x64, .f32⟩
  | 75 => ⟨S8192x64, .f32⟩
  | 76 => ⟨S8192x64, .f32⟩
  | 77 => ⟨S_, .f32⟩
  | 78 => ⟨S8192x64, .f32⟩
  | 79 => ⟨S8192x64, .f32⟩
  | 80 => ⟨S8192x64, .f32⟩
  | 81 => ⟨S8192x64, .f32⟩
  | 82 => ⟨S8192x64, .f32⟩
  | 83 => ⟨S1x64x64, .f32⟩
  | 84 => ⟨S64x64, .f32⟩
  | 85 => ⟨S1x64, .f32⟩
  | 86 => ⟨S64, .f32⟩
  | 87 => ⟨S1x64x64, .f32⟩
  | 88 => ⟨S64x64, .f32⟩
  | 89 => ⟨S1x64, .f32⟩
  | 90 => ⟨S64, .f32⟩
  | 91 => ⟨S1x64x64, .f32⟩
  | 92 => ⟨S64x64, .f32⟩
  | 93 => ⟨S1x64, .f32⟩
  | 94 => ⟨S64, .f32⟩
  | 95 => ⟨S8192x64, .f32⟩
  | 96 => ⟨S1x64, .f32⟩
  | 97 => ⟨S8192x64, .f32⟩
  | 98 => ⟨S8192x64, .f32⟩
  | 99 => ⟨S_, .f32⟩
  | 100 => ⟨S8192x64, .f32⟩
  | 101 => ⟨S8192x64, .f32⟩
  | 102 => ⟨S8192x64, .f32⟩
  | 103 => ⟨S1x64, .f32⟩
  | 104 => ⟨S8192x64, .f32⟩
  | 105 => ⟨S8192x64, .f32⟩
  | 106 => ⟨S_, .f32⟩
  | 107 => ⟨S8192x64, .f32⟩
  | 108 => ⟨S8192x64, .f32⟩
  | 109 => ⟨S8192x64, .f32⟩
  | 110 => ⟨S8192x64, .f32⟩
  | 111 => ⟨S1x64, .f32⟩
  | 112 => ⟨S8192x64, .f32⟩
  | 113 => ⟨S8192x64, .f32⟩
  | 114 => ⟨S_, .f32⟩
  | 115 => ⟨S8192x64, .f32⟩
  | 116 => ⟨S8192x64, .f32⟩
  | 117 => ⟨S8192x64, .f32⟩
  | 118 => ⟨S8192x64, .f32⟩
  | 119 => ⟨S8192x64, .f32⟩
  | 120 => ⟨S1x64x64, .f32⟩
  | 121 => ⟨S64x64, .f32⟩
  | 122 => ⟨S1x64, .f32⟩
  | 123 => ⟨S64, .f32⟩
  | 124 => ⟨S1x64x64, .f32⟩
  | 125 => ⟨S64x64, .f32⟩
  | 126 => ⟨S1x64, .f32⟩
  | 127 => ⟨S64, .f32⟩
  | _ => ⟨S8192x2, .f32⟩

abbrev hbmTy0_1 (i : Nat) : BufTy := match i % 128 with
  | 0 => ⟨S1x64x64, .f32⟩
  | 1 => ⟨S64x64, .f32⟩
  | 2 => ⟨S1x64, .f32⟩
  | 3 => ⟨S64, .f32⟩
  | 4 => ⟨S8192x64, .f32⟩
  | 5 => ⟨S1x64, .f32⟩
  | 6 => ⟨S8192x64, .f32⟩
  | 7 => ⟨S8192x64, .f32⟩
  | 8 => ⟨S_, .f32⟩
  | 9 => ⟨S8192x64, .f32⟩
  | 10 => ⟨S8192x64, .f32⟩
  | 11 => ⟨S8192x64, .f32⟩
  | 12 => ⟨S1x64, .f32⟩
  | 13 => ⟨S8192x64, .f32⟩
  | 14 => ⟨S8192x64, .f32⟩
  | 15 => ⟨S_, .f32⟩
  | 16 => ⟨S8192x64, .f32⟩
  | 17 => ⟨S8192x64, .f32⟩
  | 18 => ⟨S8192x64, .f32⟩
  | 19 => ⟨S8192x64, .f32⟩
  | 20 => ⟨S1x64, .f32⟩
  | 21 => ⟨S8192x64, .f32⟩
  | 22 => ⟨S8192x64, .f32⟩
  | 23 => ⟨S_, .f32⟩
  | 24 => ⟨S8192x64, .f32⟩
  | 25 => ⟨S8192x64, .f32⟩
  | 26 => ⟨S8192x64, .f32⟩
  | 27 => ⟨S8192x64, .f32⟩
  | 28 => ⟨S8192x64, .f32⟩
  | 29 => ⟨S_, .f32⟩
  | 30 => ⟨S64, .f32⟩
  | 31 => ⟨S1x64, .f32⟩
  | 32 => ⟨S1x64, .f32⟩
  | 33 => ⟨S1x64, .f32⟩
  | 34 => ⟨S1x64, .f32⟩
  | 35 => ⟨S_, .f32⟩
  | 36 => ⟨S1x64, .f32⟩
  | 37 => ⟨S1x64, .f32⟩
  | 38 => ⟨S1x1, .f32⟩
  | 39 => ⟨S1x1, .f32⟩
  | 40 => ⟨S1x1, .f32⟩
  | _ => ⟨S8192x2, .f32⟩

abbrev hbmTy (i : Nat) : BufTy := match i / 128 with
  | 0 => hbmTy0_0 i
  | 1 => hbmTy0_1 i
  | _ => ⟨S8192x2, .f32⟩

abbrev bufTy : (tb : Table) → Fin (tcTables nBuf tb) → BufTy
  | .hbm, ⟨i, _⟩ => hbmTy i
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_cst : Ref sig .tc := ⟨.hbm, 25, rfl⟩
abbrev main_call0_v0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_call1_cst : Ref sig .tc := ⟨.hbm, 32, rfl⟩
abbrev main_call1_v0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_call2_cst : Ref sig .tc := ⟨.hbm, 40, rfl⟩
abbrev main_call2_v0 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_call3_cst : Ref sig .tc := ⟨.hbm, 62, rfl⟩
abbrev main_call3_v0 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_call4_cst : Ref sig .tc := ⟨.hbm, 69, rfl⟩
abbrev main_call4_v0 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call5_cst : Ref sig .tc := ⟨.hbm, 77, rfl⟩
abbrev main_call5_v0 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call6_cst : Ref sig .tc := ⟨.hbm, 99, rfl⟩
abbrev main_call6_v0 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_call7_cst : Ref sig .tc := ⟨.hbm, 106, rfl⟩
abbrev main_call7_v0 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_call8_cst : Ref sig .tc := ⟨.hbm, 114, rfl⟩
abbrev main_call8_v0 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_call9_cst : Ref sig .tc := ⟨.hbm, 136, rfl⟩
abbrev main_call9_v0 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_call10_cst : Ref sig .tc := ⟨.hbm, 143, rfl⟩
abbrev main_call10_v0 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_call11_cst : Ref sig .tc := ⟨.hbm, 151, rfl⟩
abbrev main_call11_v0 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_call12_cst : Ref sig .tc := ⟨.hbm, 163, rfl⟩
abbrev main_call12_v0 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  reducesTo_S8192x64_S64_d0 : S8192x64.ReducesTo [0] S64
  h_S_ : 0 < S_.numel
  bcast_S_S1x64 : S_.BroadcastsInDim S1x64 (![] : Fin 0 → Fin S1x64.rank)
  bcast_S1_S1x1_1 : S1.BroadcastsInDim S1x1 (![1] : Fin 1 → Fin S1x1.rank)
  dot_S8192x2_S2x64_S8192x64_1_0_0_1_n_n_wf : DotDims.WF S8192x2 S2x64 S8192x64 [1] [0] [0] [1] [] []
  dot_S8192x8192_S8192x64_S8192x64_1_0_0_1_n_n_wf : DotDims.WF S8192x8192 S8192x64 S8192x64 [1] [0] [0] [1] [] []
  dot_S8192x64_S64x64_S8192x64_1_0_0_1_n_n_wf : DotDims.WF S8192x64 S64x64 S8192x64 [1] [0] [0] [1] [] []
  dot_S1x64_S64x64_S1x64_1_0_0_1_n_n_wf : DotDims.WF S1x64 S64x64 S1x64 [1] [0] [0] [1] [] []
  dot_S1x64_S64x1_S1x1_1_0_0_1_n_n_wf : DotDims.WF S1x64 S64x1 S1x1 [1] [0] [0] [1] [] []

variable [Facts₀]

def dot_S8192x2_S2x64_S8192x64_1_0_0_1_n_n : DotDims S8192x2 S2x64 S8192x64 where
  lhsContracting := [1]
  rhsContracting := [0]
  lhsNonContracting := [0]
  rhsNonContracting := [1]
  lhsBatch := []
  rhsBatch := []
  wf := dot_S8192x2_S2x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.LibPlainDot.lean ====
/-
  A plain matrix product read at an index.

  For the dimension numbers of an M×K by K×N product (contract the left operand's columns against the right
  operand's rows, no batch axis), the sum over the contraction index of the products of the operands at the
  dot's operand indices is the textbook sum: entry (r, c) is the sum over k of left (r, k) times right (k, c).
  The same sum reads a vector unit's matmul into a zero accumulator and the host's dot_general at the ideal
  values, so the two are one function of their operands.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The textbook product of an M×K and a K×N array of extended reals. -/
def mm {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- The left operand's index at output index `j` and contraction index `q` is (row of `j`, `q`). -/
theorem lhsIdx_plain {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  have hk := contrEquiv1_symm_val (DotDims.plain M K N) K rfl rfl k
  match a with
  | ⟨0, _⟩ => rfl
  | ⟨1, _⟩ => exact ((DotDims.plain M K N).lhsIdx_val_of_single rfl j _).trans hk

/-- The right operand's index there is (`q`, column of `j`). -/
theorem rhsIdx_plain {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  have hk := contrEquiv1_symm_val (DotDims.plain M K N) K rfl rfl k
  match a with
  | ⟨0, _⟩ => exact ((DotDims.plain M K N).rhsIdx_val_of_single rfl j _).trans hk
  | ⟨1, _⟩ => rfl

/-- The contraction's sum, re-indexed by the one contracted coordinate. -/
theorem sum_plain {M K N : Nat} (A : (⟨2, ![M, K]⟩ : Shape).Idx → EReal) (B : (⟨2, ![K, N]⟩ : Shape).Idx → EReal)
    (j : (⟨2, ![M, N]⟩ : Shape).Idx) :
    ∑ q : (DotDims.plain M K N).contr.Idx, A ((DotDims.plain M K N).lhsIdx j q) * B ((DotDims.plain M K N).rhsIdx j q)
      = mm A B j := by
  unfold mm
  rw [← Equiv.sum_comp (contrEquiv1 (DotDims.plain M K N) K rfl rfl).symm]
  refine Finset.sum_congr rfl fun k _ => ?_
  rw [lhsIdx_plain, rhsIdx_plain]
  rfl

/-- A vector unit's matmul into the zero accumulator is the textbook product. -/
theorem matmul_zero_eq_mm {M K N : Nat} {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant ⟨2, ![M, N]⟩ .f32 0x00000000#32) = mm A B := by
  funext j
  rw [Ideal.matmul_constant_zero_apply]
  exact sum_plain A B j

/-- The host's dot_general is the textbook product, whatever the schedule. -/
theorem dotGeneral_eq_mm {M K N : Nat} {φ₁ φ₂ : FTy} (prec : Option ContractPrecision) (sched : HostSchedule)
    (A : FVec Ideal ⟨2, ![M, K]⟩ φ₁) (B : FVec Ideal ⟨2, ![K, N]⟩ φ₂) :
    FloatOps.dotGeneral (DotDims.plain M K N) prec sched A B = mm A B := by
  funext j
  rw [Ideal.dotGeneral_apply]
  exact sum_plain A B j

end Idealize.ShloMosaic.PlainDot

end
-- ==== Proof.Region0.lean ====
/-
  The first launch, read as whole arrays.

  Its grid is 64 points; point t loads rows 128·t … 128·t + 127 of the two big matrices and the two resident
  operands whole, stores the product of the first matrix's rows with the first operand, the product of the second
  matrix's rows with the second (concatenated) operand, and re-emits both row blocks in the narrower float format.
  At the ideal values a format change is the identity and a matmul into a zero accumulator is the textbook sum, so
  each output block is a restriction of ONE whole-array function of the arrays the launch finds; the blocks tile
  the arrays, so each output array ends at that function.
-/
import proofs.«158603_j37615323579234_2_alg».proof.Proof.Gen.KernelIdeal.Frame
import proofs.«158603_j37615323579234_2_alg».proof.Proof.LibPlainDot
import Idealize.ShloMosaic.Lib.Pipeline.Value
import Idealize.ShloMosaic.Lib.ValueIdx

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.PlainDot Idealize.ShloMosaic.ValueIdx
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-! ## Output window 4: first matrix times first operand -/

/-- The stored payload is the textbook product of the 128 loaded rows of the left matrix and the whole right operand. -/
theorem pay0_4 (x0 : Vec Ideal S128x8192 .f32) (x2 : Vec Ideal S8192x64 .bf16) :
    k0_pay3 x0 x2 = mm (M := 128) (K := 8192) (N := 64) x0 x2 := by
  unfold k0_pay3 k0_pay1
  dsimp only
  rw [shapeCast_self]
  exact matmul_zero_eq_mm none _ _

/-- The index maps over the grid: the left matrix's row block moves with the output's, the right operand is resident. -/
theorem idx_facts0_4 : ∀ t : Fin cfg0.N, win0_0.index t (0 : Fin 2) = win0_4.index t (0 : Fin 2)
    ∧ win0_0.index t (1 : Fin 2) = 0
    ∧ win0_2.index t (0 : Fin 2) = 0 ∧ win0_2.index t (1 : Fin 2) = 0
    ∧ win0_4.index t (1 : Fin 2) = 0 ∧ win0_4.index t (0 : Fin 2) ≤ 63 :=
  (by decide +kernel : ∀ t : Fin grid0.N, _)

/-- What grid point `t` writes back is rows 128·t … 128·t + 127 of the product of the two whole arrays. -/
theorem flushed0_4 (c : Dev nD) (t : Fin cfg0.N) :
    (dat0 V c).flushed 4 t = ((cfg0.win 4).blk t).view.read (Elt Ideal)
      (mm (M := 8192) (K := 8192) (N := 64) (V c main_arg3) (V c main_v16)) := by
  show (cfg0.win 4).cut (grid0.coords t) ((dat0 V c).after 4 t) = _
  rw [after0_4]
  unfold out0_4
  rw [View.canon_unit_zero zero_offsets0]
  simp only [View.ld_unit_zero (S := S128x8192) zero_offsets0, View.ld_unit_zero (S := S8192x64) zero_offsets0]
  rw [pay0_4]
  obtain ⟨e0, e1, e2, e3, e4, e5⟩ := idx_facts0_4 t
  funext j
  show mm (M := 128) (K := 8192) (N := 64) (iblk0 V c 0 t) (iblk0 V c 2 t) j
     = mm (M := 8192) (K := 8192) (N := 64) (V c main_arg3) (V c main_v16) (((cfg0.win 4).blk t).view.emb j)
  unfold mm
  refine Finset.sum_congr rfl fun k _ => ?_
  have hA : ((cfg0.win 0).blk t).view.emb (ix2 (n0 := 128) (n1 := 8192) (j 0) k)
      = ix2 (n0 := 8192) (n1 := 8192) ((((cfg0.win 4).blk t).view.emb j) 0) k := by
    funext a; apply Fin.ext
    match a with
    | ⟨0, _⟩ => show win0_0.index t (0 : Fin 2) * 128 + 1 * (j 0).val = win0_4.index t (0 : Fin 2) * 128 + 1 * (j 0).val; omega
    | ⟨1, _⟩ => show win0_0.index t (1 : Fin 2) * 8192 + 1 * k.val = k.val; omega
  have hH : ((cfg0.win 2).blk t).view.emb (ix2 (n0 := 8192) (n1 := 64) k (j 1))
      = ix2 (n0 := 8192) (n1 := 64) k ((((cfg0.win 4).blk t).view.emb j) 1) := by
    funext a; apply Fin.ext
    match a with
    | ⟨0, _⟩ => show win0_2.index t (0 : Fin 2) * 8192 + 1 * k.val = k.val; omega
    | ⟨1, _⟩ => show win0_2.index t (1 : Fin 2) * 64 + 1 * (j 1).val = win0_4.index t (1 : Fin 2) * 64 + 1 * (j 1).val; omega
  rw [← hA, ← hH]
  rfl

/-- Every row block of the output is some grid point's. -/
theorem idx_onto0_4 : ∀ q : Fin 64, ∃ t : Fin cfg0.N, win0_4.index t = ![q.val, 0] :=
  (by decide +kernel : ∀ q : Fin 64, ∃ t : Fin grid0.N, win0_4.index t = ![q.val, 0])

/-- An index is in point `t`'s block iff each coordinate is in the block's range on its axis. -/
theorem mem_blk0_4 (t : Fin cfg0.N) (i : S8192x64.Idx) :
    i ∈ ((cfg0.win 4).blk t).view.set ↔ ∀ a : Fin 2, win0_4.index t a * S128x64.size a ≤ (i a).val ∧ (i a).val < win0_4.index t a * S128x64.size a + S128x64.size a := by
  show i ∈ ((View.whole main_v19_0).slice (win0_4.rect t)).set ↔ _
  rw [View.set_slice_whole, Rect.mem_set_unit]
  exact Iff.rfl

/-- The blocks tile the array: row `r` is in the block of point `r / 128`. -/
theorem cover0_4_all (i : S8192x64.Idx) : ∃ t : Fin cfg0.N, (cfg0.win 4).flush t = true ∧ i ∈ ((cfg0.win 4).blk t).view.set := by
  have hi0 : (i 0).val < 8192 := (i 0).isLt
  have hi1 : (i 1).val < 64 := (i 1).isLt
  obtain ⟨t, ht⟩ := idx_onto0_4 ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk0_4]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 64 ≤ (i 1).val ∧ (i 1).val < win0_4.index t (1 : Fin 2) * 64 + 64; omega

/-- After the launch this result array is the product of the left matrix and the resident operand, as the launch finds them. -/
theorem final0_4 (c : Dev nD) :
    (dat0 V c).arrAt 4 cfg0.N = mm (M := 8192) (K := 8192) (N := 64) (V c main_arg3) (V c main_v16) :=
  (dat0 V c).arrAt_eq_of_cover 4 _ (fun t _ => flushed0_4 V c t) cover0_4_all

/-! ## Output window 5: second matrix times the concatenated operand -/

/-- The stored payload is the textbook product of the 128 loaded rows of the left matrix and the whole right operand. -/
theorem pay0_5 (x0 : Vec Ideal S128x8192 .f32) (x2 : Vec Ideal S8192x128 .bf16) :
    k0_pay4 x0 x2 = mm (M := 128) (K := 8192) (N := 128) x0 x2 := by
  unfold k0_pay4 k0_pay2
  dsimp only
  rw [shapeCast_self]
  exact matmul_zero_eq_mm none _ _

/-- The index maps over the grid: the left matrix's row block moves with the output's, the right operand is resident. -/
theorem idx_facts0_5 : ∀ t : Fin cfg0.N, win0_1.index t (0 : Fin 2) = win0_5.index t (0 : Fin 2)
    ∧ win0_1.index t (1 : Fin 2) = 0
    ∧ win0_3.index t (0 : Fin 2) = 0 ∧ win0_3.index t (1 : Fin 2) = 0
    ∧ win0_5.index t (1 : Fin 2) = 0 ∧ win0_5.index t (0 : Fin 2) ≤ 63 :=
  (by decide +kernel : ∀ t : Fin grid0.N, _)

/-- What grid point `t` writes back is rows 128·t … 128·t + 127 of the product of the two whole arrays. -/
theorem flushed0_5 (c : Dev nD) (t : Fin cfg0.N) :
    (dat0 V c).flushed 5 t = ((cfg0.win 5).blk t).view.read (Elt Ideal)
      (mm (M := 8192) (K := 8192) (N := 128) (V c main_arg4) (V c main_v18)) := by
  show (cfg0.win 5).cut (grid0.coords t) ((dat0 V c).after 5 t) = _
  rw [after0_5]
  unfold out0_5
  rw [View.canon_unit_zero zero_offsets0]
  simp only [View.ld_unit_zero (S := S128x8192) zero_offsets0, View.ld_unit_zero (S := S8192x128) zero_offsets0]
  rw [pay0_5]
  obtain ⟨e0, e1, e2, e3, e4, e5⟩ := idx_facts0_5 t
  funext j
  show mm (M := 128) (K := 8192) (N := 128) (iblk0 V c 1 t) (iblk0 V c 3 t) j
     = mm (M := 8192) (K := 8192) (N := 128) (V c main_arg4) (V c main_v18) (((cfg0.win 5).blk t).view.emb j)
  unfold mm
  refine Finset.sum_congr rfl fun k _ => ?_
  have hA : ((cfg0.win 1).blk t).view.emb (ix2 (n0 := 128) (n1 := 8192) (j 0) k)
      = ix2 (n0 := 8192) (n1 := 8192) ((((cfg0.win 5).blk t).view.emb j) 0) k := by
    funext a; apply Fin.ext
    match a with
    | ⟨0, _⟩ => show win0_1.index t (0 : Fin 2) * 128 + 1 * (j 0).val = win0_5.index t (0 : Fin 2) * 128 + 1 * (j 0).val; omega
    | ⟨1, _⟩ => show win0_1.index t (1 : Fin 2) * 8192 + 1 * k.val = k.val; omega
  have hH : ((cfg0.win 3).blk t).view.emb (ix2 (n0 := 8192) (n1 := 128) k (j 1))
      = ix2 (n0 := 8192) (n1 := 128) k ((((cfg0.win 5).blk t).view.emb j) 1) := by
    funext a; apply Fin.ext
    match a with
    | ⟨0, _⟩ => show win0_3.index t (0 : Fin 2) * 8192 + 1 * k.val = k.val; omega
    | ⟨1, _⟩ => show win0_3.index t (1 : Fin 2) * 128 + 1 * (j 1).val = win0_5.index t (1 : Fin 2) * 128 + 1 * (j 1).val; omega
  rw [← hA, ← hH]
  rfl

/-- Every row block of the output is some grid point's. -/
theorem idx_onto0_5 : ∀ q : Fin 64, ∃ t : Fin cfg0.N, win0_5.index t = ![q.val, 0] :=
  (by decide +kernel : ∀ q : Fin 64, ∃ t : Fin grid0.N, win0_5.index t = ![q.val, 0])

/-- An index is in point `t`'s block iff each coordinate is in the block's range on its axis. -/
theorem mem_blk0_5 (t : Fin cfg0.N) (i : S8192x128.Idx) :
    i ∈ ((cfg0.win 5).blk t).view.set ↔ ∀ a : Fin 2, win0_5.index t a * S128x128.size a ≤ (i a).val ∧ (i a).val < win0_5.index t a * S128x128.size a + S128x128.size a := by
  show i ∈ ((View.whole main_v19_1).slice (win0_5.rect t)).set ↔ _
  rw [View.set_slice_whole, Rect.mem_set_unit]
  exact Iff.rfl

/-- The blocks tile the array: row `r` is in the block of point `r / 128`. -/
theorem cover0_5_all (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  obtain ⟨t, ht⟩ := idx_onto0_5 ⟨(i 0).val / 128, by omega⟩
  have q0 : win0_5.index t (0 : Fin 2) = (i 0).val / 128 := congrFun ht 0
  have q1 : win0_5.index t (1 : Fin 2) = 0 := congrFun ht 1
  refine ⟨t, flush0_5 t, ?_⟩
  rw [mem_blk0_5]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 128 ≤ (i 1).val ∧ (i 1).val < win0_5.index t (1 : Fin 2) * 128 + 128; omega

/-- After the launch this result array is the product of the left matrix and the resident operand, as the launch finds them. -/
theorem final0_5 (c : Dev nD) :
    (dat0 V c).arrAt 5 cfg0.N = mm (M := 8192) (K := 8192) (N := 128) (V c main_arg4) (V c main_v18) :=
  (dat0 V c).arrAt_eq_of_cover 5 _ (fun t _ => flushed0_5 V c t) cover0_5_all

/-! ## Output window 6: the left matrix of window 0, re-emitted in the narrower format -/

/-- At the ideal values a change of float format is the identity: the payload is the loaded block. -/
theorem pay0_6 (x0 : Vec Ideal S128x8192 .f32) (y : S128x8192.Idx) : k0_pay1 x0 y = x0 y := rfl

theorem idx_facts0_6 : ∀ t : Fin cfg0.N, win0_0.index t (0 : Fin 2) = win0_6.index t (0 : Fin 2)
    ∧ win0_0.index t (1 : Fin 2) = win0_6.index t (1 : Fin 2)
    ∧ win0_6.index t (1 : Fin 2) = 0 ∧ win0_6.index t (0 : Fin 2) ≤ 63 :=
  (by decide +kernel : ∀ t : Fin grid0.N, _)

/-- What grid point `t` writes back is its own 128 rows of the matrix the launch finds. -/
theorem flushed0_6 (c : Dev nD) (t : Fin cfg0.N) :
    (dat0 V c).flushed 6 t = ((cfg0.win 6).blk t).view.read (Elt Ideal) (V c main_arg3) := by
  show (cfg0.win 6).cut (grid0.coords t) ((dat0 V c).after 6 t) = _
  rw [after0_6]
  unfold out0_6
  rw [View.canon_unit_zero zero_offsets0]
  simp only [View.ld_unit_zero (S := S128x8192) zero_offsets0]
  obtain ⟨e0, e1, e2, e3⟩ := idx_facts0_6 t
  funext j
  show V c main_arg3 (((cfg0.win 0).blk t).view.emb j) = V c main_arg3 (((cfg0.win 6).blk t).view.emb j)
  have h0 : ((cfg0.win 0).blk t).view.emb j = ((cfg0.win 6).blk t).view.emb j := by
    funext a; apply Fin.ext
    match a with
    | ⟨0, _⟩ => show win0_0.index t (0 : Fin 2) * 128 + 1 * (j 0).val = win0_6.index t (0 : Fin 2) * 128 + 1 * (j 0).val; omega
    | ⟨1, _⟩ => show win0_0.index t (1 : Fin 2) * 8192 + 1 * (j 1).val = win0_6.index t (1 : Fin 2) * 8192 + 1 * (j 1).val; omega
  rw [h0]

theorem idx_onto0_6 : ∀ q : Fin 64, ∃ t : Fin cfg0.N, win0_6.index t = ![q.val, 0] :=
  (by decide +kernel : ∀ q : Fin 64, ∃ t : Fin grid0.N, win0_6.index t = ![q.val, 0])

theorem mem_blk0_6 (t : Fin cfg0.N) (i : S8192x8192.Idx) :
    i ∈ ((cfg0.win 6).blk t).view.set ↔ ∀ a : Fin 2, win0_6.index t a * S128x8192.size a ≤ (i a).val ∧ (i a).val < win0_6.index t a * S128x8192.size a + S128x8192.size a := by
  show i ∈ ((View.whole main_v19_2).slice (win0_6.rect t)).set ↔ _
  rw [View.set_slice_whole, Rect.mem_set_unit]
  exact Iff.rfl

theorem cover0_6_all (i : S8192x8192.Idx) : ∃ t : Fin cfg0.N, (cfg0.win 6).flush t = true ∧ i ∈ ((cfg0.win 6).blk t).view.set := by
  have hi0 : (i 0).val < 8192 := (i 0).isLt
  have hi1 : (i 1).val < 8192 := (i 1).isLt
  obtain ⟨t, ht⟩ := idx_onto0_6 ⟨(i 0).val / 128, by omega⟩
  have q0 : win0_6.index t (0 : Fin 2) = (i 0).val / 128 := congrFun ht 0
  have q1 : win0_6.index t (1 : Fin 2) = 0 := congrFun ht 1
  refine ⟨t, flush0_6 t, ?_⟩
  rw [mem_blk0_6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 8192 ≤ (i 1).val ∧ (i 1).val < win0_6.index t (1 : Fin 2) * 8192 + 8192; omega

/-- After the launch this array holds the matrix the launch found, entry by entry. -/
theorem final0_6 (c : Dev nD) : (dat0 V c).arrAt 6 cfg0.N = V c main_arg3 :=
  (dat0 V c).arrAt_eq_of_cover 6 _ (fun t _ => flushed0_6 V c t) cover0_6_all

/-! ## Output window 7: the left matrix of window 1, re-emitted in the narrower format -/

/-- At the ideal values a change of float format is the identity: the payload is the loaded block. -/
theorem pay0_7 (x0 : Vec Ideal S128x8192 .f32) (y : S128x8192.Idx) : k0_pay2 x0 y = x0 y := rfl

theorem idx_facts0_7 : ∀ t : Fin cfg0.N, win0_1.index t (0 : Fin 2) = win0_7.index t (0 : Fin 2)
    ∧ win0_1.index t (1 : Fin 2) = win0_7.index t (1 : Fin 2)
    ∧ win0_7.index t (1 : Fin 2) = 0 ∧ win0_7.index t (0 : Fin 2) ≤ 63 :=
  (by decide +kernel : ∀ t : Fin grid0.N, _)

/-- What grid point `t` writes back is its own 128 rows of the matrix the launch finds. -/
theorem flushed0_7 (c : Dev nD) (t : Fin cfg0.N) :
    (dat0 V c).flushed 7 t = ((cfg0.win 7).blk t).view.read (Elt Ideal) (V c main_arg4) := by
  show (cfg0.win 7).cut (grid0.coords t) ((dat0 V c).after 7 t) = _
  rw [after0_7]
  unfold out0_7
  rw [View.canon_unit_zero zero_offsets0]
  simp only [View.ld_unit_zero (S := S128x8192) zero_offsets0]
  obtain ⟨e0, e1, e2, e3⟩ := idx_facts0_7 t
  funext j
  show V c main_arg4 (((cfg0.win 1).blk t).view.emb j) = V c main_arg4 (((cfg0.win 7).blk t).view.emb j)
  have h0 : ((cfg0.win 1).blk t).view.emb j = ((cfg0.win 7).blk t).view.emb j := by
    funext a; apply Fin.ext
    match a with
    | ⟨0, _⟩ => show win0_1.index t (0 : Fin 2) * 128 + 1 * (j 0).val = win0_7.index t (0 : Fin 2) * 128 + 1 * (j 0).val; omega
    | ⟨1, _⟩ => show win0_1.index t (1 : Fin 2) * 8192 + 1 * (j 1).val = win0_7.index t (1 : Fin 2) * 8192 + 1 * (j 1).val; omega
  rw [h0]

theorem idx_onto0_7 : ∀ q : Fin 64, ∃ t : Fin cfg0.N, win0_7.index t = ![q.val, 0] :=
  (by decide +kernel : ∀ q : Fin 64, ∃ t : Fin grid0.N, win0_7.index t = ![q.val, 0])

theorem mem_blk0_7 (t : Fin cfg0.N) (i : S8192x8192.Idx) :
    i ∈ ((cfg0.win 7).blk t).view.set ↔ ∀ a : Fin 2, win0_7.index t a * S128x8192.size a ≤ (i a).val ∧ (i a).val < win0_7.index t a * S128x8192.size a + S128x8192.size a := by
  show i ∈ ((View.whole main_v19_3).slice (win0_7.rect t)).set ↔ _
  rw [View.set_slice_whole, Rect.mem_set_unit]
  exact Iff.rfl

theorem cover0_7_all (i : S8192x8192.Idx) : ∃ t : Fin cfg0.N, (cfg0.win 7).flush t = true ∧ i ∈ ((cfg0.win 7).blk t).view.set := by
  have hi0 : (i 0).val < 8192 := (i 0).isLt
  have hi1 : (i 1).val < 8192 := (i 1).isLt
  obtain ⟨t, ht⟩ := idx_onto0_7 ⟨(i 0).val / 128, by omega⟩
  have q0 : win0_7.index t (0 : Fin 2) = (i 0).val / 128 := congrFun ht 0
  have q1 : win0_7.index t (1 : Fin 2) = 0 := congrFun ht 1
  refine ⟨t, flush0_7 t, ?_⟩
  rw [mem_blk0_7]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 8192 ≤ (i 1).val ∧ (i 1).val < win0_7.index t (1 : Fin 2) * 8192 + 8192; omega

/-- After the launch this array holds the matrix the launch found, entry by entry. -/
theorem final0_7 (c : Dev nD) : (dat0 V c).arrAt 7 cfg0.N = V c main_arg4 :=
  (dat0 V c).arrAt_eq_of_cover 7 _ (fun t _ => flushed0_7 V c t) cover0_7_all

end Cert.KernelIdeal.Bridge

end
-- ==== Proof.LibSliceCat.lean ====
/-
  Column blocks of a product against two operands side by side.

  Put two 8192×64 arrays X and Y side by side (a concatenation along the columns) and multiply an 8192×8192 matrix
  A by the 8192×128 result. Column c of the product depends only on column c of the right operand, so the first 64
  columns of the product are A·X and the last 64 are A·Y: one wide product is two narrow ones.
-/
import Idealize.ShloMosaic.Lib.Pipeline.Value
import proofs.«158603_j37615323579234_2_alg».proof.Proof.LibPlainDot

noncomputable section

open scoped BigOperators

namespace Idealize.ShloMosaic.PlainDot

open Idealize.ShloMosaic Idealize.ShloMosaic.ValueIdx

/-- The shapes involved, literally. -/
abbrev Sq : Shape := ⟨2, ![8192, 8192]⟩
abbrev Sn : Shape := ⟨2, ![8192, 64]⟩
abbrev Sw : Shape := ⟨2, ![8192, 128]⟩

/-- Two narrow arrays side by side. -/
abbrev sideBySide (X Y : Sn.Idx → EReal) (h : Shape.Concatenates [Sn, Sn] Sw 1) : Sw.Idx → EReal :=
  concatenate Sw 1 [⟨Sn, X⟩, ⟨Sn, Y⟩] h

/-- Equal pieces give equal concatenations (stated so that each piece can be rewritten on its own). -/
theorem sideBySide_congr {X X' Y Y' : Sn.Idx → EReal} (h : Shape.Concatenates [Sn, Sn] Sw 1) (hX : X = X') (hY : Y = Y') :
    concatenate Sw 1 [⟨Sn, X⟩, ⟨Sn, Y⟩] h = sideBySide X' Y' h := by
  subst hX; subst hY; rfl

/-- A column among the first 64 of the concatenation is that column of the first array. -/
theorem sideBySide_left (X Y : Sn.Idx → EReal) (h : Shape.Concatenates [Sn, Sn] Sw 1) (k : Fin 8192) (q : Fin 64) :
    sideBySide X Y h (ix2 k (⟨q.val, by omega⟩ : Fin 128)) = X (ix2 k q) :=
  concatenate_pair_apply_left 1 X Y h _ rfl (ix2 k q) (fun b => by match b with | ⟨0, _⟩ => rfl | ⟨1, _⟩ => rfl)

/-- A column among the last 64 is that column, less 64, of the second array. -/
theorem sideBySide_right (X Y : Sn.Idx → EReal) (h : Shape.Concatenates [Sn, Sn] Sw 1) (k : Fin 8192) (q : Fin 64) :
    sideBySide X Y h (ix2 k (⟨64 + q.val, by omega⟩ : Fin 128)) = Y (ix2 k q) :=
  concatenate_pair_apply_right 1 X Y h _ rfl rfl (ix2 k q)
    (fun b hb => by match b with | ⟨0, _⟩ => rfl | ⟨1, _⟩ => exact absurd rfl hb)
    (by show q.val + 64 = 64 + q.val; omega)

/-- The first 64 columns of A·[X | Y] are A·X. -/
theorem slice_lo_mm (A : Sq.Idx → EReal) (X Y : Sn.Idx → EReal) (h : Shape.Concatenates [Sn, Sn] Sw 1)
    (hs : Sw.Slices ![0, 0] Sn) :
    extractStridedSlice Sn ![0, 0] (mm (M := 8192) (K := 8192) (N := 128) A (sideBySide X Y h)) hs
      = mm (M := 8192) (K := 8192) (N := 64) A X := by
  funext i
  have h1 : (i 1).val < 64 := (i 1).isLt
  refine (extractStridedSlice_apply ![0, 0] (mm (M := 8192) (K := 8192) (N := 128) A (sideBySide X Y h)) hs i
    (ix2 (i 0) (⟨(i 1).val, by omega⟩ : Fin 128)) (fun a => by
      match a with
      | ⟨0, _⟩ => show (i 0).val = 0 + (i 0).val; omega
      | ⟨1, _⟩ => show (i 1).val = 0 + (i 1).val; omega)).trans ?_
  unfold mm
  refine Finset.sum_congr rfl fun k _ => ?_
  show A (ix2 (i 0) k) * sideBySide X Y h (ix2 k (⟨(i 1).val, by omega⟩ : Fin 128)) = _
  rw [sideBySide_left X Y h k (i 1)]

/-- The last 64 columns of A·[X | Y] are A·Y. -/
theorem slice_hi_mm (A : Sq.Idx → EReal) (X Y : Sn.Idx → EReal) (h : Shape.Concatenates [Sn, Sn] Sw 1)
    (hs : Sw.Slices ![0, 64] Sn) :
    extractStridedSlice Sn ![0, 64] (mm (M := 8192) (K := 8192) (N := 128) A (sideBySide X Y h)) hs
      = mm (M := 8192) (K := 8192) (N := 64) A Y := by
  funext i
  have h1 : (i 1).val < 64 := (i 1).isLt
  refine (extractStridedSlice_apply ![0, 64] (mm (M := 8192) (K := 8192) (N := 128) A (sideBySide X Y h)) hs i
    (ix2 (i 0) (⟨64 + (i 1).val, by omega⟩ : Fin 128)) (fun a => by
      match a with
      | ⟨0, _⟩ => show (i 0).val = 0 + (i 0).val; omega
      | ⟨1, _⟩ => show 64 + (i 1).val = 64 + (i 1).val; rfl)).trans ?_
  unfold mm
  refine Finset.sum_congr rfl fun k _ => ?_
  show A (ix2 (i 0) k) * sideBySide X Y h (ix2 k (⟨64 + (i 1).val, by omega⟩ : Fin 128)) = _
  rw [sideBySide_right X Y h k (i 1)]

end Idealize.ShloMosaic.PlainDot

end
-- ==== Proof.Boundary0.lean ====
/-
  The launch arguments, the layers, and the first launch.

  The network is four layers. Layer l forms the cell features Hc = relu(X1·w1 + b1) + relu(X2·w2 + b2) and the user
  features Hu = relu(Xu·w3 + b3), then aggregates: X1' = A_cl·Hc, X2' = A_ue·Hu, Xu' = A_ue·Hc. The reference does the
  three products on the host. The kernel's host code forms the same Hc and Hu by the same operations, hands
  [A_cl, A_ue, Hc, (Hu | Hc)] to a launch that returns A_cl·Hc and A_ue·(Hu | Hc), and cuts the second result's columns
  0–63 and 64–127 apart: A_ue·Hu and A_ue·Hc. At the ideal values the narrowing of Hc, Hu and of the two matrices
  is the identity. This module names every intermediate value as the reference composes it, reads the buffers the
  first launch finds, and states what it leaves.
-/
import proofs.«158603_j37615323579234_2_alg».proof.Proof.KernelRun
import proofs.«158603_j37615323579234_2_alg».proof.Proof.Region0
import proofs.«158603_j37615323579234_2_alg».proof.Proof.LibSliceCat
import proofs.«158603_j37615323579234_2_alg».proof.Proof.Gen.ReferenceIdeal.Read
import Idealize.ShloMosaic.Lib.StableHlo.Run

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.PlainDot Idealize.ShloMosaic.ValueIdx

variable (m : (ℓ : Loc nD τ sig) → Buf (Elt Ideal) ℓ) (ρ : Dev nD → PrngReg) (c : Dev nD)

/-! ## The launch arguments on a core, and the layers' values -/

abbrev arg0 := m ((c : Thread nD τ).loc main_arg0)
abbrev arg1 := m ((c : Thread nD τ).loc main_arg1)
abbrev arg2 := m ((c : Thread nD τ).loc main_arg2)
abbrev arg3 := m ((c : Thread nD τ).loc main_arg3)
abbrev arg4 := m ((c : Thread nD τ).loc main_arg4)
abbrev arg5 := m ((c : Thread nD τ).loc main_arg5)
abbrev arg6 := m ((c : Thread nD τ).loc main_arg6)
abbrev arg7 := m ((c : Thread nD τ).loc main_arg7)
abbrev arg8 := m ((c : Thread nD τ).loc main_arg8)
abbrev arg9 := m ((c : Thread nD τ).loc main_arg9)
abbrev arg10 := m ((c : Thread nD τ).loc main_arg10)
abbrev arg11 := m ((c : Thread nD τ).loc main_arg11)
abbrev arg12 := m ((c : Thread nD τ).loc main_arg12)
abbrev arg13 := m ((c : Thread nD τ).loc main_arg13)
abbrev arg14 := m ((c : Thread nD τ).loc main_arg14)
abbrev arg15 := m ((c : Thread nD τ).loc main_arg15)
abbrev arg16 := m ((c : Thread nD τ).loc main_arg16)
abbrev arg17 := m ((c : Thread nD τ).loc main_arg17)
abbrev arg18 := m ((c : Thread nD τ).loc main_arg18)
abbrev arg19 := m ((c : Thread nD τ).loc main_arg19)
abbrev arg20 := m ((c : Thread nD τ).loc main_arg20)

/-- Layer 0's cell features, as the reference's operations compose them from the launch arguments. -/
abbrev Hc0 := Cert.ReferenceIdeal.Read.val_main_v10 (F := Ideal) (arg0 m c) (arg1 m c) (arg5 m c) (arg6 m c) (arg9 m c) (arg10 m c)
/-- Layer 0's user features, as the reference's operations compose them from the launch arguments. -/
abbrev Hu0 := Cert.ReferenceIdeal.Read.val_main_v15 (F := Ideal) (arg2 m c) (arg13 m c) (arg14 m c)
/-- The first matrix times layer 0's cell features, as the reference's operations compose them from the launch arguments. -/
abbrev P1 := Cert.ReferenceIdeal.Read.val_main_v16 (F := Ideal) (arg0 m c) (arg1 m c) (arg3 m c) (arg5 m c) (arg6 m c) (arg9 m c) (arg10 m c)
/-- The second matrix times layer 0's user features, as the reference's operations compose them from the launch arguments. -/
abbrev Q1 := Cert.ReferenceIdeal.Read.val_main_v17 (F := Ideal) (arg2 m c) (arg4 m c) (arg13 m c) (arg14 m c)
/-- The second matrix times layer 0's cell features, as the reference's operations compose them from the launch arguments. -/
abbrev U1 := Cert.ReferenceIdeal.Read.val_main_v18 (F := Ideal) (arg0 m c) (arg1 m c) (arg4 m c) (arg5 m c) (arg6 m c) (arg9 m c) (arg10 m c)
/-- Layer 1's cell features, as the reference's operations compose them from the launch arguments. -/
abbrev Hc1 := Cert.ReferenceIdeal.Read.val_main_v41 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c)
/-- Layer 1's user features, as the reference's operations compose them from the launch arguments. -/
abbrev Hu1 := Cert.ReferenceIdeal.Read.val_main_v46 (F := Ideal) (arg0 m c) (arg1 m c) (arg4 m c) (arg5 m c) (arg6 m c) (arg9 m c) (arg10 m c) (arg15 m c) (arg16 m c)
/-- The first matrix times layer 1's cell features, as the reference's operations compose them from the launch arguments. -/
abbrev P2 := Cert.ReferenceIdeal.Read.val_main_v47 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c)
/-- The second matrix times layer 1's user features, as the reference's operations compose them from the launch arguments. -/
abbrev Q2 := Cert.ReferenceIdeal.Read.val_main_v48 (F := Ideal) (arg0 m c) (arg1 m c) (arg4 m c) (arg5 m c) (arg6 m c) (arg9 m c) (arg10 m c) (arg15 m c) (arg16 m c)
/-- The second matrix times layer 1's cell features, as the reference's operations compose them from the launch arguments. -/
abbrev U2 := Cert.ReferenceIdeal.Read.val_main_v49 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c)
/-- Layer 2's cell features, as the reference's operations compose them from the launch arguments. -/
abbrev Hc2 := Cert.ReferenceIdeal.Read.val_main_v72 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c)
/-- Layer 2's user features, as the reference's operations compose them from the launch arguments. -/
abbrev Hu2 := Cert.ReferenceIdeal.Read.val_main_v77 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c)
/-- The first matrix times layer 2's cell features, as the reference's operations compose them from the launch arguments. -/
abbrev P3 := Cert.ReferenceIdeal.Read.val_main_v78 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c)
/-- The second matrix times layer 2's user features, as the reference's operations compose them from the launch arguments. -/
abbrev Q3 := Cert.ReferenceIdeal.Read.val_main_v79 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c)
/-- The network's result, as the reference's operations compose them from the launch arguments. -/
abbrev Out := Cert.ReferenceIdeal.Read.val_main_v120 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c)

/-- The host's product of the big matrix with a feature array is the textbook product. -/
theorem mm_eq_dot (A : Sq.Idx → EReal) (H : Sn.Idx → EReal) :
    mm (M := 8192) (K := 8192) (N := 64) A H
      = Host.dotGeneral (F := Ideal) (φ₁ := .f32) (φ₂ := .f32) Cert.ReferenceIdeal.dot_S8192x8192_S8192x64_S8192x64_1_0_0_1_n_n none A H :=
  (dotGeneral_eq_mm none .single A H).symm

/-- Reads a buffer back through the first stretch of host operations to the launch memory. -/
macro "walk0" : tactic => `(tactic| (dsimp only [W7, W6, W5, W4, W3, W2, W1, hostOps0, hostOps0_1, hostOps0_2, hostOps0_3, hostOps0_4, hostOps0_5, hostOps0_6]; after_results_simp))

/-! ## What the first launch finds -/

theorem s0_arg3 : W7 m ρ c (Proc.devRef .tc main_arg3) = arg3 m c := by walk0 <;> rfl
theorem s0_arg4 : W7 m ρ c (Proc.devRef .tc main_arg4) = arg4 m c := by walk0 <;> rfl
/-- The first resident operand is layer 0's cell features (narrowed: the same numbers). -/
theorem s0_v16 : (W7 m ρ c (Proc.devRef .tc main_v16) : Sn.Idx → EReal) = Hc0 m c := by walk0 <;> rfl
/-- The second is the user features and the cell features side by side. -/
theorem s0_v18 : (W7 m ρ c (Proc.devRef .tc main_v18) : Sw.Idx → EReal)
    = sideBySide (Hu0 m c) (Hc0 m c) concatenates_S8192x64_S8192x64_S8192x128_d1 := by walk0 <;> rfl

/-! ## What the first launch leaves -/

theorem l0_v19_0 : W8 m ρ c (Proc.devRef .tc main_v19_0) = P1 m c := by
  refine (W8_arr m ρ c 4).trans ((final0_4 (V7 m ρ) c).trans ?_)
  show mm (M := 8192) (K := 8192) (N := 64) (W7 m ρ c (Proc.devRef .tc main_arg3)) (W7 m ρ c (Proc.devRef .tc main_v16)) = _
  rw [s0_arg3, s0_v16]
  exact mm_eq_dot _ _

theorem l0_v19_1 : W8 m ρ c (Proc.devRef .tc main_v19_1)
    = mm (M := 8192) (K := 8192) (N := 128) (arg4 m c) (sideBySide (Hu0 m c) (Hc0 m c) concatenates_S8192x64_S8192x64_S8192x128_d1) := by
  refine (W8_arr m ρ c 5).trans ((final0_5 (V7 m ρ) c).trans ?_)
  show mm (M := 8192) (K := 8192) (N := 128) (W7 m ρ c (Proc.devRef .tc main_arg4)) (W7 m ρ c (Proc.devRef .tc main_v18)) = _
  rw [s0_arg4, s0_v18]

/-- The re-emitted matrices hold the launch's own matrices. -/
theorem l0_v19_2 : (W8 m ρ c (Proc.devRef .tc main_v19_2) : Sq.Idx → EReal) = arg3 m c :=
  (W8_arr m ρ c 6).trans ((final0_6 (V7 m ρ) c).trans (s0_arg3 m ρ c))
theorem l0_v19_3 : (W8 m ρ c (Proc.devRef .tc main_v19_3) : Sq.Idx → EReal) = arg4 m c :=
  (W8_arr m ρ c 7).trans ((final0_7 (V7 m ρ) c).trans (s0_arg4 m ρ c))

/-- The weights the later layers read are untouched by the first stretch and the first launch. -/
theorem k8_7 : W8 m ρ c (Proc.devRef .tc main_arg7) = arg7 m c :=
  (W8_of_ne m ρ c main_arg7 (by decide)).trans (by walk0 <;> rfl)
theorem k8_8 : W8 m ρ c (Proc.devRef .tc main_arg8) = arg8 m c :=
  (W8_of_ne m ρ c main_arg8 (by decide)).trans (by walk0 <;> rfl)
theorem k8_11 : W8 m ρ c (Proc.devRef .tc main_arg11) = arg11 m c :=
  (W8_of_ne m ρ c main_arg11 (by decide)).trans (by walk0 <;> rfl)
theorem k8_12 : W8 m ρ c (Proc.devRef .tc main_arg12) = arg12 m c :=
  (W8_of_ne m ρ c main_arg12 (by decide)).trans (by walk0 <;> rfl)
theorem k8_15 : W8 m ρ c (Proc.devRef .tc main_arg15) = arg15 m c :=
  (W8_of_ne m ρ c main_arg15 (by decide)).trans (by walk0 <;> rfl)
theorem k8_16 : W8 m ρ c (Proc.devRef .tc main_arg16) = arg16 m c :=
  (W8_of_ne m ρ c main_arg16 (by decide)).trans (by walk0 <;> rfl)
theorem k8_17 : W8 m ρ c (Proc.devRef .tc main_arg17) = arg17 m c :=
  (W8_of_ne m ρ c main_arg17 (by decide)).trans (by walk0 <;> rfl)
theorem k8_18 : W8 m ρ c (Proc.devRef .tc main_arg18) = arg18 m c :=
  (W8_of_ne m ρ c main_arg18 (by decide)).trans (by walk0 <;> rfl)
theorem k8_19 : W8 m ρ c (Proc.devRef .tc main_arg19) = arg19 m c :=
  (W8_of_ne m ρ c main_arg19 (by decide)).trans (by walk0 <;> rfl)
theorem k8_20 : W8 m ρ c (Proc.devRef .tc main_arg20) = arg20 m c :=
  (W8_of_ne m ρ c main_arg20 (by decide)).trans (by walk0 <;> rfl)

end Cert.KernelIdeal.Bridge

end
-- ==== Proof.Region1.lean ====
/-
  Launch 1, read as whole arrays.

  Its grid is 32 points; point t loads rows 256·t … 256·t + 255 of the two big matrices (already in the narrower
  format) and the two resident operands whole, and stores the two products. Each output block is a restriction of
  one whole-array product; the blocks tile the arrays.
-/
import proofs.«158603_j37615323579234_2_alg».proof.Proof.Gen.KernelIdeal.Frame
import proofs.«158603_j37615323579234_2_alg».proof.Proof.LibPlainDot
import Idealize.ShloMosaic.Lib.Pipeline.Value
import Idealize.ShloMosaic.Lib.ValueIdx

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.PlainDot Idealize.ShloMosaic.ValueIdx
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-! ## Output window 4: first matrix times first operand -/

/-- The stored payload is the textbook product of the 256 loaded rows of the left matrix and the whole right operand. -/
theorem pay1_4 (x0 : Vec Ideal S256x8192 .bf16) (x2 : Vec Ideal S8192x64 .bf16) :
    k1_pay1 x0 x2 = mm (M := 256) (K := 8192) (N := 64) x0 x2 := by
  unfold k1_pay1
  dsimp only
  rw [shapeCast_self, shapeCast_self]
  exact matmul_zero_eq_mm none _ _

/-- The index maps over the grid: the left matrix's row block moves with the output's, the right operand is resident. -/
theorem idx_facts1_4 : ∀ t : Fin cfg1.N, win1_0.index t (0 : Fin 2) = win1_4.index t (0 : Fin 2)
    ∧ win1_0.index t (1 : Fin 2) = 0
    ∧ win1_2.index t (0 : Fin 2) = 0 ∧ win1_2.index t (1 : Fin 2) = 0
    ∧ win1_4.index t (1 : Fin 2) = 0 ∧ win1_4.index t (0 : Fin 2) ≤ 31 :=
  (by decide +kernel : ∀ t : Fin grid1.N, _)

/-- What grid point `t` writes back is rows 256·t … 256·t + 255 of the product of the two whole arrays. -/
theorem flushed1_4 (c : Dev nD) (t : Fin cfg1.N) :
    (dat1 V c).flushed 4 t = ((cfg1.win 4).blk t).view.read (Elt Ideal)
      (mm (M := 8192) (K := 8192) (N := 64) (V c main_v19_2) (V c main_v50)) := by
  show (cfg1.win 4).cut (grid1.coords t) ((dat1 V c).after 4 t) = _
  rw [after1_4]
  unfold out1_4
  rw [View.canon_unit_zero zero_offsets1]
  simp only [View.ld_unit_zero (S := S256x8192) zero_offsets1, View.ld_unit_zero (S := S8192x64) zero_offsets1]
  rw [pay1_4]
  obtain ⟨e0, e1, e2, e3, e4, e5⟩ := idx_facts1_4 t
  funext j
  show mm (M := 256) (K := 8192) (N := 64) (iblk1 V c 0 t) (iblk1 V c 2 t) j
     = mm (M := 8192) (K := 8192) (N := 64) (V c main_v19_2) (V c main_v50) (((cfg1.win 4).blk t).view.emb j)
  unfold mm
  refine Finset.sum_congr rfl fun k _ => ?_
  have hA : ((cfg1.win 0).blk t).view.emb (ix2 (n0 := 256) (n1 := 8192) (j 0) k)
      = ix2 (n0 := 8192) (n1 := 8192) ((((cfg1.win 4).blk t).view.emb j) 0) k := by
    funext a; apply Fin.ext
    match a with
    | ⟨0, _⟩ => show win1_0.index t (0 : Fin 2) * 256 + 1 * (j 0).val = win1_4.index t (0 : Fin 2) * 256 + 1 * (j 0).val; omega
    | ⟨1, _⟩ => show win1_0.index t (1 : Fin 2) * 8192 + 1 * k.val = k.val; omega
  have hH : ((cfg1.win 2).blk t).view.emb (ix2 (n0 := 8192) (n1 := 64) k (j 1))
      = ix2 (n0 := 8192) (n1 := 64) k ((((cfg1.win 4).blk t).view.emb j) 1) := by
    funext a; apply Fin.ext
    match a with
    | ⟨0, _⟩ => show win1_2.index t (0 : Fin 2) * 8192 + 1 * k.val = k.val; omega
    | ⟨1, _⟩ => show win1_2.index t (1 : Fin 2) * 64 + 1 * (j 1).val = win1_4.index t (1 : Fin 2) * 64 + 1 * (j 1).val; omega
  rw [← hA, ← hH]
  rfl

/-- Every row block of the output is some grid point's. -/
theorem idx_onto1_4 : ∀ q : Fin 32, ∃ t : Fin cfg1.N, win1_4.index t = ![q.val, 0] :=
  (by decide +kernel : ∀ q : Fin 32, ∃ t : Fin grid1.N, win1_4.index t = ![q.val, 0])

/-- An index is in point `t`'s block iff each coordinate is in the block's range on its axis. -/
theorem mem_blk1_4 (t : Fin cfg1.N) (i : S8192x64.Idx) :
    i ∈ ((cfg1.win 4).blk t).view.set ↔ ∀ a : Fin 2, win1_4.index t a * S256x64.size a ≤ (i a).val ∧ (i a).val < win1_4.index t a * S256x64.size a + S256x64.size a := by
  show i ∈ ((View.whole main_v53_0).slice (win1_4.rect t)).set ↔ _
  rw [View.set_slice_whole, Rect.mem_set_unit]
  exact Iff.rfl

/-- The blocks tile the array: row `r` is in the block of point `r / 256`. -/
theorem cover1_4_all (i : S8192x64.Idx) : ∃ t : Fin cfg1.N, (cfg1.win 4).flush t = true ∧ i ∈ ((cfg1.win 4).blk t).view.set := by
  have hi0 : (i 0).val < 8192 := (i 0).isLt
  have hi1 : (i 1).val < 64 := (i 1).isLt
  obtain ⟨t, ht⟩ := idx_onto1_4 ⟨(i 0).val / 256, by omega⟩
  have q0 : win1_4.index t (0 : Fin 2) = (i 0).val / 256 := congrFun ht 0
  have q1 : win1_4.index t (1 : Fin 2) = 0 := congrFun ht 1
  refine ⟨t, flush1_4 t, ?_⟩
  rw [mem_blk1_4]
  intro a
  match a with
  | ⟨0, _⟩ => show win1_4.index t (0 : Fin 2) * 256 ≤ (i 0).val ∧ (i 0).val < win1_4.index t (0 : Fin 2) * 256 + 256; omega
  | ⟨1, _⟩ => show win1_4.index t (1 : Fin 2) * 64 ≤ (i 1).val ∧ (i 1).val < win1_4.index t (1 : Fin 2) * 64 + 64; omega

/-- After the launch this result array is the product of the left matrix and the resident operand, as the launch finds them. -/
theorem final1_4 (c : Dev nD) :
    (dat1 V c).arrAt 4 cfg1.N = mm (M := 8192) (K := 8192) (N := 64) (V c main_v19_2) (V c main_v50) :=
  (dat1 V c).arrAt_eq_of_cover 4 _ (fun t _ => flushed1_4 V c t) cover1_4_all

/-! ## Output window 5: second matrix times the concatenated operand -/

/-- The stored payload is the textbook product of the 256 loaded rows of the left matrix and the whole right operand. -/
theorem pay1_5 (x0 : Vec Ideal S256x8192 .bf16) (x2 : Vec Ideal S8192x128 .bf16) :
    k1_pay2 x0 x2 = mm (M := 256) (K := 8192) (N := 128) x0 x2 := by
  unfold k1_pay2
  dsimp only
  rw [shapeCast_self, shapeCast_self]
  exact matmul_zero_eq_mm none _ _

/-- The index maps over the grid: the left matrix's row block moves with the output's, the right operand is resident. -/
theorem idx_facts1_5 : ∀ t : Fin cfg1.N, win1_1.index t (0 : Fin 2) = win1_5.index t (0 : Fin 2)
    ∧ win1_1.index t (1 : Fin 2) = 0
    ∧ win1_3.index t (0 : Fin 2) = 0 ∧ win1_3.index t (1 : Fin 2) = 0
    ∧ win1_5.index t (1 : Fin 2) = 0 ∧ win1_5.index t (0 : Fin 2) ≤ 31 :=
  (by decide +kernel : ∀ t : Fin grid1.N, _)

/-- What grid point `t` writes back is rows 256·t … 256·t + 255 of the product of the two whole arrays. -/
theorem flushed1_5 (c : Dev nD) (t : Fin cfg1.N) :
    (dat1 V c).flushed 5 t = ((cfg1.win 5).blk t).view.read (Elt Ideal)
      (mm (M := 8192) (K := 8192) (N := 128) (V c main_v19_3) (V c main_v52)) := by
  show (cfg1.win 5).cut (grid1.coords t) ((dat1 V c).after 5 t) = _
  rw [after1_5]
  unfold out1_5
  rw [View.canon_unit_zero zero_offsets1]
  simp only [View.ld_unit_zero (S := S256x8192) zero_offsets1, View.ld_unit_zero (S := S8192x128) zero_offsets1]
  rw [pay1_5]
  obtain ⟨e0, e1, e2, e3, e4, e5⟩ := idx_facts1_5 t
  funext j
  show mm (M := 256) (K := 8192) (N := 128) (iblk1 V c 1 t) (iblk1 V c 3 t) j
     = mm (M := 8192) (K := 8192) (N := 128) (V c main_v19_3) (V c main_v52) (((cfg1.win 5).blk t).view.emb j)
  unfold mm
  refine Finset.sum_congr rfl fun k _ => ?_
  have hA : ((cfg1.win 1).blk t).view.emb (ix2 (n0 := 256) (n1 := 8192) (j 0) k)
      = ix2 (n0 := 8192) (n1 := 8192) ((((cfg1.win 5).blk t).view.emb j) 0) k := by
    funext a; apply Fin.ext
    match a with
    | ⟨0, _⟩ => show win1_1.index t (0 : Fin 2) * 256 + 1 * (j 0).val = win1_5.index t (0 : Fin 2) * 256 + 1 * (j 0).val; omega
    | ⟨1, _⟩ => show win1_1.index t (1 : Fin 2) * 8192 + 1 * k.val = k.val; omega
  have hH : ((cfg1.win 3).blk t).view.emb (ix2 (n0 := 8192) (n1 := 128) k (j 1))
      = ix2 (n0 := 8192) (n1 := 128) k ((((cfg1.win 5).blk t).view.emb j) 1) := by
    funext a; apply Fin.ext
    match a with
    | ⟨0, _⟩ => show win1_3.index t (0 : Fin 2) * 8192 + 1 * k.val = k.val; omega
    | ⟨1, _⟩ => show win1_3.index t (1 : Fin 2) * 128 + 1 * (j 1).val = win1_5.index t (1 : Fin 2) * 128 + 1 * (j 1).val; omega
  rw [← hA, ← hH]
  rfl

/-- Every row block of the output is some grid point's. -/
theorem idx_onto1_5 : ∀ q : Fin 32, ∃ t : Fin cfg1.N, win1_5.index t = ![q.val, 0] :=
  (by decide +kernel : ∀ q : Fin 32, ∃ t : Fin grid1.N, win1_5.index t = ![q.val, 0])

/-- An index is in point `t`'s block iff each coordinate is in the block's range on its axis. -/
theorem mem_blk1_5 (t : Fin cfg1.N) (i : S8192x128.Idx) :
    i ∈ ((cfg1.win 5).blk t).view.set ↔ ∀ a : Fin 2, win1_5.index t a * S256x128.size a ≤ (i a).val ∧ (i a).val < win1_5.index t a * S256x128.size a + S256x128.size a := by
  show i ∈ ((View.whole main_v53_1).slice (win1_5.rect t)).set ↔ _
  rw [View.set_slice_whole, Rect.mem_set_unit]
  exact Iff.rfl

/-- The blocks tile the array: row `r` is in the block of point `r / 256`. -/
theorem cover1_5_all (i : S8192x128.Idx) : ∃ t : Fin cfg1.N, (cfg1.win 5).flush t = true ∧ i ∈ ((cfg1.win 5).blk t).view.set := by
  have hi0 : (i 0).val < 8192 := (i 0).isLt
  have hi1 : (i 1).val < 128 := (i 1).isLt
  obtain ⟨t, ht⟩ := idx_onto1_5 ⟨(i 0).val / 256, by omega⟩
  have q0 : win1_5.index t (0 : Fin 2) = (i 0).val / 256 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 128 ≤ (i 1).val ∧ (i 1).val < win1_5.index t (1 : Fin 2) * 128 + 128; omega

/-- After the launch this result array is the product of the left matrix and the resident operand, as the launch finds them. -/
theorem final1_5 (c : Dev nD) :
    (dat1 V c).arrAt 5 cfg1.N = mm (M := 8192) (K := 8192) (N := 128) (V c main_v19_3) (V c main_v52) :=
  (dat1 V c).arrAt_eq_of_cover 5 _ (fun t _ => flushed1_5 V c t) cover1_5_all

end Cert.KernelIdeal.Bridge

end
-- ==== Proof.Boundary1.lean ====
/-
  Layer 1: the host operations between launch 0 and launch 1, and what launch 1 leaves.

  From what the previous launch left (A_cl·Hc, A_ue·(Hu | Hc), the two matrices) the host cuts the wide product's
  column halves apart, forms this layer's cell and user features with this layer's weights, and hands the launch the
  two matrices, Hc and (Hu | Hc). Every value is the reference's own composition of the launch arguments.
-/
import proofs.«158603_j37615323579234_2_alg».proof.Proof.Boundary0
import proofs.«158603_j37615323579234_2_alg».proof.Proof.Region1

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.PlainDot Idealize.ShloMosaic.ValueIdx

variable (m : (ℓ : Loc nD τ sig) → Buf (Elt Ideal) ℓ) (ρ : Dev nD → PrngReg) (c : Dev nD)

/-- Reads a buffer back through this stretch of host operations to what the previous launch left. -/
macro "walk1" : tactic => `(tactic| (dsimp only [W15, W14, W13, W12, W11, W10, W9, hostOps1, hostOps1_1, hostOps1_2, hostOps1_3, hostOps1_4, hostOps1_5, hostOps1_6]; after_results_simp))

/-! ## What launch 1 finds -/

theorem s1_v19_2 : (W15 m ρ c (Proc.devRef .tc main_v19_2) : Sq.Idx → EReal) = arg3 m c := by
  walk1
  all_goals exact l0_v19_2 m ρ c
theorem s1_v19_3 : (W15 m ρ c (Proc.devRef .tc main_v19_3) : Sq.Idx → EReal) = arg4 m c := by
  walk1
  all_goals exact l0_v19_3 m ρ c

/-- The first resident operand is this layer's cell features. -/
theorem s1_hc : (W15 m ρ c (Proc.devRef .tc main_v50) : Sn.Idx → EReal) = Hc1 m c := by
  walk1
  all_goals
    rw [l0_v19_0 m ρ c, l0_v19_1 m ρ c, k8_7 m ρ c, k8_8 m ρ c, k8_11 m ρ c, k8_12 m ρ c, slice_lo_mm, mm_eq_dot]
    rfl

/-- The second is this layer's user features and cell features side by side. -/
theorem s1_hcat : (W15 m ρ c (Proc.devRef .tc main_v52) : Sw.Idx → EReal)
    = sideBySide (Hu1 m c) (Hc1 m c) concatenates_S8192x64_S8192x64_S8192x128_d1 := by
  walk1
  refine sideBySide_congr _ ?_ ?_
  · after_results_simp
    all_goals
      rw [l0_v19_1 m ρ c, k8_15 m ρ c, k8_16 m ρ c, slice_hi_mm, mm_eq_dot]
      rfl
  · after_results_simp
    all_goals
      rw [l0_v19_0 m ρ c, l0_v19_1 m ρ c, k8_7 m ρ c, k8_8 m ρ c, k8_11 m ρ c, k8_12 m ρ c, slice_lo_mm, mm_eq_dot]
      rfl

/-! ## What launch 1 leaves -/

theorem l1_v53_0 : W16 m ρ c (Proc.devRef .tc main_v53_0) = P2 m c := by
  refine (W16_arr m ρ c 4).trans ((final1_4 (V15 m ρ) c).trans ?_)
  show mm (M := 8192) (K := 8192) (N := 64) (W15 m ρ c (Proc.devRef .tc main_v19_2)) (W15 m ρ c (Proc.devRef .tc main_v50)) = _
  rw [s1_v19_2, s1_hc]
  exact mm_eq_dot _ _

theorem l1_v53_1 : W16 m ρ c (Proc.devRef .tc main_v53_1)
    = mm (M := 8192) (K := 8192) (N := 128) (arg4 m c) (sideBySide (Hu1 m c) (Hc1 m c) concatenates_S8192x64_S8192x64_S8192x128_d1) := by
  refine (W16_arr m ρ c 5).trans ((final1_5 (V15 m ρ) c).trans ?_)
  show mm (M := 8192) (K := 8192) (N := 128) (W15 m ρ c (Proc.devRef .tc main_v19_3)) (W15 m ρ c (Proc.devRef .tc main_v52)) = _
  rw [s1_v19_3, s1_hcat]

/-- The two matrices are inputs of this launch, which leaves an input array as it finds it; the later layers' weights
    are touched by neither this stretch nor this launch. -/
theorem k16_v19_2 : (W16 m ρ c (Proc.devRef .tc main_v19_2) : Sq.Idx → EReal) = arg3 m c :=
  (W16_arr m ρ c 0).trans ((((dat1 (V15 m ρ) c).arrAt_in 0 rfl _).trans (A_eq1 (V15 m ρ) c 0)).trans (s1_v19_2 m ρ c))
theorem k16_v19_3 : (W16 m ρ c (Proc.devRef .tc main_v19_3) : Sq.Idx → EReal) = arg4 m c :=
  (W16_arr m ρ c 1).trans ((((dat1 (V15 m ρ) c).arrAt_in 1 rfl _).trans (A_eq1 (V15 m ρ) c 1)).trans (s1_v19_3 m ρ c))
theorem k16_7 : W16 m ρ c (Proc.devRef .tc main_arg7) = arg7 m c :=
  (W16_of_ne m ρ c main_arg7 (by decide)).trans (by walk1; all_goals exact k8_7 m ρ c)
theorem k16_8 : W16 m ρ c (Proc.devRef .tc main_arg8) = arg8 m c :=
  (W16_of_ne m ρ c main_arg8 (by decide)).trans (by walk1; all_goals exact k8_8 m ρ c)
theorem k16_11 : W16 m ρ c (Proc.devRef .tc main_arg11) = arg11 m c :=
  (W16_of_ne m ρ c main_arg11 (by decide)).trans (by walk1; all_goals exact k8_11 m ρ c)
theorem k16_12 : W16 m ρ c (Proc.devRef .tc main_arg12) = arg12 m c :=
  (W16_of_ne m ρ c main_arg12 (by decide)).trans (by walk1; all_goals exact k8_12 m ρ c)
theorem k16_15 : W16 m ρ c (Proc.devRef .tc main_arg15) = arg15 m c :=
  (W16_of_ne m ρ c main_arg15 (by decide)).trans (by walk1; all_goals exact k8_15 m ρ c)
theorem k16_16 : W16 m ρ c (Proc.devRef .tc main_arg16) = arg16 m c :=
  (W16_of_ne m ρ c main_arg16 (by decide)).trans (by walk1; all_goals exact k8_16 m ρ c)
theorem k16_17 : W16 m ρ c (Proc.devRef .tc main_arg17) = arg17 m c :=
  (W16_of_ne m ρ c main_arg17 (by decide)).trans (by walk1; all_goals exact k8_17 m ρ c)
theorem k16_18 : W16 m ρ c (Proc.devRef .tc main_arg18) = arg18 m c :=
  (W16_of_ne m ρ c main_arg18 (by decide)).trans (by walk1; all_goals exact k8_18 m ρ c)
theorem k16_19 : W16 m ρ c (Proc.devRef .tc main_arg19) = arg19 m c :=
  (W16_of_ne m ρ c main_arg19 (by decide)).trans (by walk1; all_goals exact k8_19 m ρ c)
theorem k16_20 : W16 m ρ c (Proc.devRef .tc main_arg20) = arg20 m c :=
  (W16_of_ne m ρ c main_arg20 (by decide)).trans (by walk1; all_goals exact k8_20 m ρ c)

end Cert.KernelIdeal.Bridge

end
-- ==== Proof.Region2.lean ====
/-
  Launch 2, read as whole arrays.

  Its grid is 32 points; point t loads rows 256·t … 256·t + 255 of the two big matrices (already in the narrower
  format) and the two resident operands whole, and stores the two products. Each output block is a restriction of
  one whole-array product; the blocks tile the arrays.
-/
import proofs.«158603_j37615323579234_2_alg».proof.Proof.Gen.KernelIdeal.Frame
import proofs.«158603_j37615323579234_2_alg».proof.Proof.LibPlainDot
import Idealize.ShloMosaic.Lib.Pipeline.Value
import Idealize.ShloMosaic.Lib.ValueIdx

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.PlainDot Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-! ## Output window 4: first matrix times first operand -/

/-- The stored payload is the textbook product of the 256 loaded rows of the left matrix and the whole right operand. -/
theorem pay2_4 (x0 : Vec Ideal S256x8192 .bf16) (x2 : Vec Ideal S8192x64 .bf16) :
    k2_pay1 x0 x2 = mm (M := 256) (K := 8192) (N := 64) x0 x2 := by
  unfold k2_pay1
  dsimp only
  rw [shapeCast_self, shapeCast_self]
  exact matmul_zero_eq_mm none _ _

/-- The index maps over the grid: the left matrix's row block moves with the output's, the right operand is resident. -/
theorem idx_facts2_4 : ∀ t : Fin cfg2.N, win2_0.index t (0 : Fin 2) = win2_4.index t (0 : Fin 2)
    ∧ win2_0.index t (1 : Fin 2) = 0
    ∧ win2_2.index t (0 : Fin 2) = 0 ∧ win2_2.index t (1 : Fin 2) = 0
    ∧ win2_4.index t (1 : Fin 2) = 0 ∧ win2_4.index t (0 : Fin 2) ≤ 31 :=
  (by decide +kernel : ∀ t : Fin grid2.N, _)

/-- What grid point `t` writes back is rows 256·t … 256·t + 255 of the product of the two whole arrays. -/
theorem flushed2_4 (c : Dev nD) (t : Fin cfg2.N) :
    (dat2 V c).flushed 4 t = ((cfg2.win 4).blk t).view.read (Elt Ideal)
      (mm (M := 8192) (K := 8192) (N := 64) (V c main_v19_2) (V c main_v84)) := by
  show (cfg2.win 4).cut (grid2.coords t) ((dat2 V c).after 4 t) = _
  rw [after2_4]
  unfold out2_4
  rw [View.canon_unit_zero zero_offsets2]
  simp only [View.ld_unit_zero (S := S256x8192) zero_offsets2, View.ld_unit_zero (S := S8192x64) zero_offsets2]
  rw [pay2_4]
  obtain ⟨e0, e1, e2, e3, e4, e5⟩ := idx_facts2_4 t
  funext j
  show mm (M := 256) (K := 8192) (N := 64) (iblk2 V c 0 t) (iblk2 V c 2 t) j
     = mm (M := 8192) (K := 8192) (N := 64) (V c main_v19_2) (V c main_v84) (((cfg2.win 4).blk t).view.emb j)
  unfold mm
  refine Finset.sum_congr rfl fun k _ => ?_
  have hA : ((cfg2.win 0).blk t).view.emb (ix2 (n0 := 256) (n1 := 8192) (j 0) k)
      = ix2 (n0 := 8192) (n1 := 8192) ((((cfg2.win 4).blk t).view.emb j) 0) k := by
    funext a; apply Fin.ext
    match a with
    | ⟨0, _⟩ => show win2_0.index t (0 : Fin 2) * 256 + 1 * (j 0).val = win2_4.index t (0 : Fin 2) * 256 + 1 * (j 0).val; omega
    | ⟨1, _⟩ => show win2_0.index t (1 : Fin 2) * 8192 + 1 * k.val = k.val; omega
  have hH : ((cfg2.win 2).blk t).view.emb (ix2 (n0 := 8192) (n1 := 64) k (j 1))
      = ix2 (n0 := 8192) (n1 := 64) k ((((cfg2.win 4).blk t).view.emb j) 1) := by
    funext a; apply Fin.ext
    match a with
    | ⟨0, _⟩ => show win2_2.index t (0 : Fin 2) * 8192 + 1 * k.val = k.val; omega
    | ⟨1, _⟩ => show win2_2.index t (1 : Fin 2) * 64 + 1 * (j 1).val = win2_4.index t (1 : Fin 2) * 64 + 1 * (j 1).val; omega
  rw [← hA, ← hH]
  rfl

/-- Every row block of the output is some grid point's. -/
theorem idx_onto2_4 : ∀ q : Fin 32, ∃ t : Fin cfg2.N, win2_4.index t = ![q.val, 0] :=
  (by decide +kernel : ∀ q : Fin 32, ∃ t : Fin grid2.N, win2_4.index t = ![q.val, 0])

/-- An index is in point `t`'s block iff each coordinate is in the block's range on its axis. -/
theorem mem_blk2_4 (t : Fin cfg2.N) (i : S8192x64.Idx) :
    i ∈ ((cfg2.win 4).blk t).view.set ↔ ∀ a : Fin 2, win2_4.index t a * S256x64.size a ≤ (i a).val ∧ (i a).val < win2_4.index t a * S256x64.size a + S256x64.size a := by
  show i ∈ ((View.whole main_v87_0).slice (win2_4.rect t)).set ↔ _
  rw [View.set_slice_whole, Rect.mem_set_unit]
  exact Iff.rfl

/-- The blocks tile the array: row `r` is in the block of point `r / 256`. -/
theorem cover2_4_all (i : S8192x64.Idx) : ∃ t : Fin cfg2.N, (cfg2.win 4).flush t = true ∧ i ∈ ((cfg2.win 4).blk t).view.set := by
  have hi0 : (i 0).val < 8192 := (i 0).isLt
  have hi1 : (i 1).val < 64 := (i 1).isLt
  obtain ⟨t, ht⟩ := idx_onto2_4 ⟨(i 0).val / 256, by omega⟩
  have q0 : win2_4.index t (0 : Fin 2) = (i 0).val / 256 := congrFun ht 0
  have q1 : win2_4.index t (1 : Fin 2) = 0 := congrFun ht 1
  refine ⟨t, flush2_4 t, ?_⟩
  rw [mem_blk2_4]
  intro a
  match a with
  | ⟨0, _⟩ => show win2_4.index t (0 : Fin 2) * 256 ≤ (i 0).val ∧ (i 0).val < win2_4.index t (0 : Fin 2) * 256 + 256; omega
  | ⟨1, _⟩ => show win2_4.index t (1 : Fin 2) * 64 ≤ (i 1).val ∧ (i 1).val < win2_4.index t (1 : Fin 2) * 64 + 64; omega

/-- After the launch this result array is the product of the left matrix and the resident operand, as the launch finds them. -/
theorem final2_4 (c : Dev nD) :
    (dat2 V c).arrAt 4 cfg2.N = mm (M := 8192) (K := 8192) (N := 64) (V c main_v19_2) (V c main_v84) :=
  (dat2 V c).arrAt_eq_of_cover 4 _ (fun t _ => flushed2_4 V c t) cover2_4_all

/-! ## Output window 5: second matrix times the concatenated operand -/

/-- The stored payload is the textbook product of the 256 loaded rows of the left matrix and the whole right operand. -/
theorem pay2_5 (x0 : Vec Ideal S256x8192 .bf16) (x2 : Vec Ideal S8192x128 .bf16) :
    k2_pay2 x0 x2 = mm (M := 256) (K := 8192) (N := 128) x0 x2 := by
  unfold k2_pay2
  dsimp only
  rw [shapeCast_self, shapeCast_self]
  exact matmul_zero_eq_mm none _ _

/-- The index maps over the grid: the left matrix's row block moves with the output's, the right operand is resident. -/
theorem idx_facts2_5 : ∀ t : Fin cfg2.N, win2_1.index t (0 : Fin 2) = win2_5.index t (0 : Fin 2)
    ∧ win2_1.index t (1 : Fin 2) = 0
    ∧ win2_3.index t (0 : Fin 2) = 0 ∧ win2_3.index t (1 : Fin 2) = 0
    ∧ win2_5.index t (1 : Fin 2) = 0 ∧ win2_5.index t (0 : Fin 2) ≤ 31 :=
  (by decide +kernel : ∀ t : Fin grid2.N, _)

/-- What grid point `t` writes back is rows 256·t … 256·t + 255 of the product of the two whole arrays. -/
theorem flushed2_5 (c : Dev nD) (t : Fin cfg2.N) :
    (dat2 V c).flushed 5 t = ((cfg2.win 5).blk t).view.read (Elt Ideal)
      (mm (M := 8192) (K := 8192) (N := 128) (V c main_v19_3) (V c main_v86)) := by
  show (cfg2.win 5).cut (grid2.coords t) ((dat2 V c).after 5 t) = _
  rw [after2_5]
  unfold out2_5
  rw [View.canon_unit_zero zero_offsets2]
  simp only [View.ld_unit_zero (S := S256x8192) zero_offsets2, View.ld_unit_zero (S := S8192x128) zero_offsets2]
  rw [pay2_5]
  obtain ⟨e0, e1, e2, e3, e4, e5⟩ := idx_facts2_5 t
  funext j
  show mm (M := 256) (K := 8192) (N := 128) (iblk2 V c 1 t) (iblk2 V c 3 t) j
     = mm (M := 8192) (K := 8192) (N := 128) (V c main_v19_3) (V c main_v86) (((cfg2.win 5).blk t).view.emb j)
  unfold mm
  refine Finset.sum_congr rfl fun k _ => ?_
  have hA : ((cfg2.win 1).blk t).view.emb (ix2 (n0 := 256) (n1 := 8192) (j 0) k)
      = ix2 (n0 := 8192) (n1 := 8192) ((((cfg2.win 5).blk t).view.emb j) 0) k := by
    funext a; apply Fin.ext
    match a with
    | ⟨0, _⟩ => show win2_1.index t (0 : Fin 2) * 256 + 1 * (j 0).val = win2_5.index t (0 : Fin 2) * 256 + 1 * (j 0).val; omega
    | ⟨1, _⟩ => show win2_1.index t (1 : Fin 2) * 8192 + 1 * k.val = k.val; omega
  have hH : ((cfg2.win 3).blk t).view.emb (ix2 (n0 := 8192) (n1 := 128) k (j 1))
      = ix2 (n0 := 8192) (n1 := 128) k ((((cfg2.win 5).blk t).view.emb j) 1) := by
    funext a; apply Fin.ext
    match a with
    | ⟨0, _⟩ => show win2_3.index t (0 : Fin 2) * 8192 + 1 * k.val = k.val; omega
    | ⟨1, _⟩ => show win2_3.index t (1 : Fin 2) * 128 + 1 * (j 1).val = win2_5.index t (1 : Fin 2) * 128 + 1 * (j 1).val; omega
  rw [← hA, ← hH]
  rfl

/-- Every row block of the output is some grid point's. -/
theorem idx_onto2_5 : ∀ q : Fin 32, ∃ t : Fin cfg2.N, win2_5.index t = ![q.val, 0] :=
  (by decide +kernel : ∀ q : Fin 32, ∃ t : Fin grid2.N, win2_5.index t = ![q.val, 0])

/-- An index is in point `t`'s block iff each coordinate is in the block's range on its axis. -/
theorem mem_blk2_5 (t : Fin cfg2.N) (i : S8192x128.Idx) :
    i ∈ ((cfg2.win 5).blk t).view.set ↔ ∀ a : Fin 2, win2_5.index t a * S256x128.size a ≤ (i a).val ∧ (i a).val < win2_5.index t a * S256x128.size a + S256x128.size a := by
  show i ∈ ((View.whole main_v87_1).slice (win2_5.rect t)).set ↔ _
  rw [View.set_slice_whole, Rect.mem_set_unit]
  exact Iff.rfl

/-- The blocks tile the array: row `r` is in the block of point `r / 256`. -/
theorem cover2_5_all (i : S8192x128.Idx) : ∃ t : Fin cfg2.N, (cfg2.win 5).flush t = true ∧ i ∈ ((cfg2.win 5).blk t).view.set := by
  have hi0 : (i 0).val < 8192 := (i 0).isLt
  have hi1 : (i 1).val < 128 := (i 1).isLt
  obtain ⟨t, ht⟩ := idx_onto2_5 ⟨(i 0).val / 256, by omega⟩
  have q0 : win2_5.index t (0 : Fin 2) = (i 0).val / 256 := congrFun ht 0
  have q1 : win2_5.index t (1 : Fin 2) = 0 := congrFun ht 1
  refine ⟨t, flush2_5 t, ?_⟩
  rw [mem_blk2_5]
  intro a
  match a with
  | ⟨0, _⟩ => show win2_5.index t (0 : Fin 2) * 256 ≤ (i 0).val ∧ (i 0).val < win2_5.index t (0 : Fin 2) * 256 + 256; omega
  | ⟨1, _⟩ => show win2_5.index t (1 : Fin 2) * 128 ≤ (i 1).val ∧ (i 1).val < win2_5.index t (1 : Fin 2) * 128 + 128; omega

/-- After the launch this result array is the product of the left matrix and the resident operand, as the launch finds them. -/
theorem final2_5 (c : Dev nD) :
    (dat2 V c).arrAt 5 cfg2.N = mm (M := 8192) (K := 8192) (N := 128) (V c main_v19_3) (V c main_v86) :=
  (dat2 V c).arrAt_eq_of_cover 5 _ (fun t _ => flushed2_5 V c t) cover2_5_all

end Cert.KernelIdeal.Bridge

end
-- ==== Proof.Boundary2.lean ====
/-
  Layer 2: the host operations between launch 1 and launch 2, and what launch 2 leaves.

  From what the previous launch left (A_cl·Hc, A_ue·(Hu | Hc), the two matrices) the host cuts the wide product's
  column halves apart, forms this layer's cell and user features with this layer's weights, and hands the launch the
  two matrices, Hc and (Hu | Hc). Every value is the reference's own composition of the launch arguments.
-/
import proofs.«158603_j37615323579234_2_alg».proof.Proof.Boundary1
import proofs.«158603_j37615323579234_2_alg».proof.Proof.Region2

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.PlainDot Idealize.ShloMosaic.ValueIdx

variable (m : (ℓ : Loc nD τ sig) → Buf (Elt Ideal) ℓ) (ρ : Dev nD → PrngReg) (c : Dev nD)

/-- Reads a buffer back through this stretch of host operations to what the previous launch left. -/
macro "walk2" : tactic => `(tactic| (dsimp only [W23, W22, W21, W20, W19, W18, W17, hostOps2, hostOps2_1, hostOps2_2, hostOps2_3, hostOps2_4, hostOps2_5, hostOps2_6]; after_results_simp))

/-! ## What launch 2 finds -/

theorem s2_v19_2 : (W23 m ρ c (Proc.devRef .tc main_v19_2) : Sq.Idx → EReal) = arg3 m c := by
  walk2
  all_goals exact k16_v19_2 m ρ c
theorem s2_v19_3 : (W23 m ρ c (Proc.devRef .tc main_v19_3) : Sq.Idx → EReal) = arg4 m c := by
  walk2
  all_goals exact k16_v19_3 m ρ c

/-- The first resident operand is this layer's cell features. -/
theorem s2_hc : (W23 m ρ c (Proc.devRef .tc main_v84) : Sn.Idx → EReal) = Hc2 m c := by
  walk2
  all_goals
    rw [l1_v53_0 m ρ c, l1_v53_1 m ρ c, k16_7 m ρ c, k16_8 m ρ c, k16_11 m ρ c, k16_12 m ρ c, slice_lo_mm, mm_eq_dot]
    rfl

/-- The second is this layer's user features and cell features side by side. -/
theorem s2_hcat : (W23 m ρ c (Proc.devRef .tc main_v86) : Sw.Idx → EReal)
    = sideBySide (Hu2 m c) (Hc2 m c) concatenates_S8192x64_S8192x64_S8192x128_d1 := by
  walk2
  refine sideBySide_congr _ ?_ ?_
  · after_results_simp
    all_goals
      rw [l1_v53_1 m ρ c, k16_15 m ρ c, k16_16 m ρ c, slice_hi_mm, mm_eq_dot]
      rfl
  · after_results_simp
    all_goals
      rw [l1_v53_0 m ρ c, l1_v53_1 m ρ c, k16_7 m ρ c, k16_8 m ρ c, k16_11 m ρ c, k16_12 m ρ c, slice_lo_mm, mm_eq_dot]
      rfl

/-! ## What launch 2 leaves -/

theorem l2_v87_0 : W24 m ρ c (Proc.devRef .tc main_v87_0) = P3 m c := by
  refine (W24_arr m ρ c 4).trans ((final2_4 (V23 m ρ) c).trans ?_)
  show mm (M := 8192) (K := 8192) (N := 64) (W23 m ρ c (Proc.devRef .tc main_v19_2)) (W23 m ρ c (Proc.devRef .tc main_v84)) = _
  rw [s2_v19_2, s2_hc]
  exact mm_eq_dot _ _

theorem l2_v87_1 : W24 m ρ c (Proc.devRef .tc main_v87_1)
    = mm (M := 8192) (K := 8192) (N := 128) (arg4 m c) (sideBySide (Hu2 m c) (Hc2 m c) concatenates_S8192x64_S8192x64_S8192x128_d1) := by
  refine (W24_arr m ρ c 5).trans ((final2_5 (V23 m ρ) c).trans ?_)
  show mm (M := 8192) (K := 8192) (N := 128) (W23 m ρ c (Proc.devRef .tc main_v19_3)) (W23 m ρ c (Proc.devRef .tc main_v86)) = _
  rw [s2_v19_3, s2_hcat]

/-- The two matrices are inputs of this launch, which leaves an input array as it finds it; the later layers' weights
    are touched by neither this stretch nor this launch. -/
theorem k24_v19_2 : (W24 m ρ c (Proc.devRef .tc main_v19_2) : Sq.Idx → EReal) = arg3 m c :=
  (W24_arr m ρ c 0).trans ((((dat2 (V23 m ρ) c).arrAt_in 0 rfl _).trans (A_eq2 (V23 m ρ) c 0)).trans (s2_v19_2 m ρ c))
theorem k24_v19_3 : (W24 m ρ c (Proc.devRef .tc main_v19_3) : Sq.Idx → EReal) = arg4 m c :=
  (W24_arr m ρ c 1).trans ((((dat2 (V23 m ρ) c).arrAt_in 1 rfl _).trans (A_eq2 (V23 m ρ) c 1)).trans (s2_v19_3 m ρ c))
theorem k24_7 : W24 m ρ c (Proc.devRef .tc main_arg7) = arg7 m c :=
  (W24_of_ne m ρ c main_arg7 (by decide)).trans (by walk2; all_goals exact k16_7 m ρ c)
theorem k24_8 : W24 m ρ c (Proc.devRef .tc main_arg8) = arg8 m c :=
  (W24_of_ne m ρ c main_arg8 (by decide)).trans (by walk2; all_goals exact k16_8 m ρ c)
theorem k24_11 : W24 m ρ c (Proc.devRef .tc main_arg11) = arg11 m c :=
  (W24_of_ne m ρ c main_arg11 (by decide)).trans (by walk2; all_goals exact k16_11 m ρ c)
theorem k24_12 : W24 m ρ c (Proc.devRef .tc main_arg12) = arg12 m c :=
  (W24_of_ne m ρ c main_arg12 (by decide)).trans (by walk2; all_goals exact k16_12 m ρ c)
theorem k24_17 : W24 m ρ c (Proc.devRef .tc main_arg17) = arg17 m c :=
  (W24_of_ne m ρ c main_arg17 (by decide)).trans (by walk2; all_goals exact k16_17 m ρ c)
theorem k24_18 : W24 m ρ c (Proc.devRef .tc main_arg18) = arg18 m c :=
  (W24_of_ne m ρ c main_arg18 (by decide)).trans (by walk2; all_goals exact k16_18 m ρ c)
theorem k24_19 : W24 m ρ c (Proc.devRef .tc main_arg19) = arg19 m c :=
  (W24_of_ne m ρ c main_arg19 (by decide)).trans (by walk2; all_goals exact k16_19 m ρ c)
theorem k24_20 : W24 m ρ c (Proc.devRef .tc main_arg20) = arg20 m c :=
  (W24_of_ne m ρ c main_arg20 (by decide)).trans (by walk2; all_goals exact k16_20 m ρ c)

end Cert.KernelIdeal.Bridge

end
-- ==== Proof.Tail.lean ====
/-
  The last layer and the read-out: the host operations after the third launch.

  From A_cl·Hc and A_ue·(Hu | Hc) of layer 2 the host forms layer 3's cell features, sums them over the 8192 rows,
  and applies the two read-out layers. Layer 3 aggregates nothing in the kernel; the reference's layer-3 products are
  computed but never read by its result, so the two results are the same composition of the launch arguments.
-/
import proofs.«158603_j37615323579234_2_alg».proof.Proof.Boundary2

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.PlainDot Idealize.ShloMosaic.ValueIdx

variable (m : (ℓ : Loc nD τ sig) → Buf (Elt Ideal) ℓ) (ρ : Dev nD → PrngReg) (c : Dev nD)

/-- Reads a buffer back through the last stretch of host operations to what the third launch left. -/
macro "walk3" : tactic => `(tactic| (dsimp only [W31, W30, W29, W28, W27, W26, W25, hostOps3, hostOps3_1, hostOps3_2, hostOps3_3, hostOps3_4, hostOps3_5, hostOps3_6]; after_results_simp))

/-- The kernel's result buffer ends at the reference's composition of the launch arguments. -/
theorem result_eq : W31 m ρ c (Proc.devRef .tc main_v121) = Out m c := by
  walk3
  all_goals
    rw [l2_v87_0 m ρ c, l2_v87_1 m ρ c, k24_7 m ρ c, k24_8 m ρ c, k24_11 m ρ c, k24_12 m ρ c,
      k24_17 m ρ c, k24_18 m ρ c, k24_19 m ρ c, k24_20 m ρ c, slice_lo_mm, mm_eq_dot]
    rfl

end Cert.KernelIdeal.Bridge

end
-- ==== Proof.lean ====
/-
  The certificate's five claims for a four-layer graph network whose three aggregation steps run as kernel launches.

  Both programs compute, layer by layer, cell features Hc = relu(X1·w1 + b1) + relu(X2·w2 + b2) and user features
  Hu = relu(Xu·w3 + b3), then X1' = A_cl·Hc, X2' = A_ue·Hu, Xu' = A_ue·Hc, and read the last layer's cell features out
  through a column sum and two small layers. The kernel differs in three ways, none of which changes a number at the
  ideal values: it narrows the float format of the features and of the two big matrices (the identity there); it
  obtains A_ue·Hu and A_ue·Hc as the two column halves of ONE product A_ue·(Hu | Hc), which is the same sums since a
  product's column depends only on that column of the right operand; and it skips the last layer's aggregation, which
  the result never reads. No law beyond re-indexing finite sums is used, so the inputs' finiteness is never opened.

  The frames of the two kernel programs and the reference's run are generated and imported. The kernel's value is
  read off its run boundary by boundary (Proof/Boundary0–2, Proof/Tail) over the launches' whole-array values
  (Proof/Region0–2), and meets the reference's composed term argument by argument.
-/
import proofs.«158603_j37615323579234_2_alg».proof.Defs
import proofs.«158603_j37615323579234_2_alg».proof.Proof.Gen.Kernel
import proofs.«158603_j37615323579234_2_alg».proof.Proof.Gen.Kernel.Skeleton
import proofs.«158603_j37615323579234_2_alg».proof.Proof.Gen.Kernel.Launch
import proofs.«158603_j37615323579234_2_alg».proof.Proof.Gen.Kernel.Points
import proofs.«158603_j37615323579234_2_alg».proof.Proof.Gen.Kernel.Frame
import proofs.«158603_j37615323579234_2_alg».proof.Proof.Gen.KernelIdeal
import proofs.«158603_j37615323579234_2_alg».proof.Proof.Gen.KernelIdeal.Skeleton
import proofs.«158603_j37615323579234_2_alg».proof.Proof.Gen.KernelIdeal.Launch
import proofs.«158603_j37615323579234_2_alg».proof.Proof.Gen.KernelIdeal.Points
import proofs.«158603_j37615323579234_2_alg».proof.Proof.Gen.KernelIdeal.Frame
import proofs.«158603_j37615323579234_2_alg».proof.Proof.Gen.ReferenceIdeal
import proofs.«158603_j37615323579234_2_alg».proof.Proof.Gen.ReferenceIdeal.Run
import proofs.«158603_j37615323579234_2_alg».proof.Proof.Gen.ReferenceIdeal.Read
import proofs.«158603_j37615323579234_2_alg».proof.Proof.Gen.Pre_finite_inputs
import proofs.«158603_j37615323579234_2_alg».proof.Proof.Tail
import Idealize.ShloMosaic.Adequacy
import Idealize.ShloMosaic.Init

set_option maxRecDepth 16384

noncomputable section

namespace Cert.Proof

open Idealize.ShloMosaic Idealize.SL.Sem

/-- The word-level kernel runs and keeps its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no launch: its frame is its generated run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing: the idealization is the program's own text read at the ideal values. -/
theorem preserves : Cert.preserves_Kernel_KernelIdeal := trivial

/-- From memories agreeing on the arguments both programs end at the reference's composition of those arguments:
    the kernel's run ends every buffer at the last boundary's contents, whose result buffer is that composition
    (`Bridge.result_eq`); the reference's run ends at its own composed term, which is that composition of ITS
    arguments, equal to the kernel's by the agreement. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Bridge.Out m c, ?_, ?_⟩
  · refine (θ_run Cert.KernelIdeal.defs _ _).mono (fun r h c => ?_) (Cert.KernelIdeal.Gen.run_all (F := Ideal) m ρ)
    exact ⟨(h c _ (Cert.KernelIdeal.Gen.mem_uc Cert.KernelIdeal.main_v121 (by decide))).trans (Cert.KernelIdeal.Bridge.result_eq m ρ c),
       (h c _ (Cert.KernelIdeal.Gen.mem_uc Cert.KernelIdeal.main_arg0 (by decide))).trans (Cert.KernelIdeal.Gen.W31_main_arg0 m ρ c),
       (h c _ (Cert.KernelIdeal.Gen.mem_uc Cert.KernelIdeal.main_arg1 (by decide))).trans (Cert.KernelIdeal.Gen.W31_main_arg1 m ρ c),
       (h c _ (Cert.KernelIdeal.Gen.mem_uc Cert.KernelIdeal.main_arg2 (by decide))).trans (Cert.KernelIdeal.Gen.W31_main_arg2 m ρ c),
       (h c _ (Cert.KernelIdeal.Gen.mem_uc Cert.KernelIdeal.main_arg3 (by decide))).trans (Cert.KernelIdeal.Gen.W31_main_arg3 m ρ c),
       (h c _ (Cert.KernelIdeal.Gen.mem_uc Cert.KernelIdeal.main_arg4 (by decide))).trans (Cert.KernelIdeal.Gen.W31_main_arg4 m ρ c),
       (h c _ (Cert.KernelIdeal.Gen.mem_uc Cert.KernelIdeal.main_arg5 (by decide))).trans (Cert.KernelIdeal.Gen.W31_main_arg5 m ρ c),
       (h c _ (Cert.KernelIdeal.Gen.mem_uc Cert.KernelIdeal.main_arg6 (by decide))).trans (Cert.KernelIdeal.Gen.W31_main_arg6 m ρ c),
       (h c _ (Cert.KernelIdeal.Gen.mem_uc Cert.KernelIdeal.main_arg7 (by decide))).trans (Cert.KernelIdeal.Gen.W31_main_arg7 m ρ c),
       (h c _ (Cert.KernelIdeal.Gen.mem_uc Cert.KernelIdeal.main_arg8 (by decide))).trans (Cert.KernelIdeal.Gen.W31_main_arg8 m ρ c),
       (h c _ (Cert.KernelIdeal.Gen.mem_uc Cert.KernelIdeal.main_arg9 (by decide))).trans (Cert.KernelIdeal.Gen.W31_main_arg9 m ρ c),
       (h c _ (Cert.KernelIdeal.Gen.mem_uc Cert.KernelIdeal.main_arg10 (by decide))).trans (Cert.KernelIdeal.Gen.W31_main_arg10 m ρ c),
       (h c _ (Cert.KernelIdeal.Gen.mem_uc Cert.KernelIdeal.main_arg11 (by decide))).trans (Cert.KernelIdeal.Gen.W31_main_arg11 m ρ c),
       (h c _ (Cert.KernelIdeal.Gen.mem_uc Cert.KernelIdeal.main_arg12 (by decide))).trans (Cert.KernelIdeal.Gen.W31_main_arg12 m ρ c),
       (h c _ (Cert.KernelIdeal.Gen.mem_uc Cert.KernelIdeal.main_arg13 (by decide))).trans (Cert.KernelIdeal.Gen.W31_main_arg13 m ρ c),
       (h c _ (Cert.KernelIdeal.Gen.mem_uc Cert.KernelIdeal.main_arg14 (by decide))).trans (Cert.KernelIdeal.Gen.W31_main_arg14 m ρ c),
       (h c _ (Cert.KernelIdeal.Gen.mem_uc Cert.KernelIdeal.main_arg15 (by decide))).trans (Cert.KernelIdeal.Gen.W31_main_arg15 m ρ c),
       (h c _ (Cert.KernelIdeal.Gen.mem_uc Cert.KernelIdeal.main_arg16 (by decide))).trans (Cert.KernelIdeal.Gen.W31_main_arg16 m ρ c),
       (h c _ (Cert.KernelIdeal.Gen.mem_uc Cert.KernelIdeal.main_arg17 (by decide))).trans (Cert.KernelIdeal.Gen.W31_main_arg17 m ρ c),
       (h c _ (Cert.KernelIdeal.Gen.mem_uc Cert.KernelIdeal.main_arg18 (by decide))).trans (Cert.KernelIdeal.Gen.W31_main_arg18 m ρ c),
       (h c _ (Cert.KernelIdeal.Gen.mem_uc Cert.KernelIdeal.main_arg19 (by decide))).trans (Cert.KernelIdeal.Gen.W31_main_arg19 m ρ c),
       (h c _ (Cert.KernelIdeal.Gen.mem_uc Cert.KernelIdeal.main_arg20 (by decide))).trans (Cert.KernelIdeal.Gen.W31_main_arg20 m ρ c)⟩
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20⟩ := hagree c
    rw [Cert.ReferenceIdeal.Read.val_main_v120_eq, e0, e1, e2, e3, e4, e5, e6, e7, e8, e9, e10, e11, e12, e13, e14, e15, e16, e17, e18, e19, e20]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
